-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S256x2048 : Shape := ⟨2, ![256, 2048]⟩
abbrev S256x256 : Shape := ⟨2, ![256, 256]⟩
abbrev S2048x256 : Shape := ⟨2, ![2048, 256]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S512x2048 : S_.BroadcastsInDim S512x2048 (![] : Fin 0 → Fin S512x2048.rank)
  reducesTo_S512x2048_S_d0_1 : S512x2048.ReducesTo [0, 1] S_
  bcast_S_S256x2048 : S_.BroadcastsInDim S256x2048 (![] : Fin 0 → Fin S256x2048.rank)
  reducesTo_S256x2048_S_d0_1 : S256x2048.ReducesTo [0, 1] S_
  bcast_S_S256x256 : S_.BroadcastsInDim S256x256 (![] : Fin 0 → Fin S256x256.rank)
  reducesTo_S256x256_S_d0_1 : S256x256.ReducesTo [0, 1] S_
  bcast_S_S2048x256 : S_.BroadcastsInDim S2048x256 (![] : Fin 0 → Fin S2048x256.rank)
  reducesTo_S2048x256_S_d0_1 : S2048x256.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x512 .f32) (main_arg12 : FVec F S2048x512 .f32) (main_arg13 : FVec F S2048x256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S2048x512 .f32 := Host.absf main_arg11
  let main_cst_20 : FVec F S_ .f32 := constant S_ .f32 0x7F800000#32
  let main_v55 : FVec F S2048x512 .f32 := broadcastInDim S2048x512 ![] bcast_S_S2048x512 main_cst_20
  let main_v56 : IVec S2048x512 1 := cmpf .olt main_v54 main_v55
  let main_c_21 : IVec S_ 1 := constantI S_ 1 1#1
  let main_v57 : IVec S_ 1 := (fun x v => Host.reduce IntOp.andi x v reducesTo_S2048x512_S_d0_1 h_S_) main_v56 main_c_21
  let main_v58 : IVec S_ 1 := andi main_v53 main_v57
  let main_v59 : FVec F S2048x512 .f32 := Host.absf main_arg12
  let main_cst_22 : FVec F S_ .f32 := constant S_ .f32 0x7F800000#32
  let main_v60 : FVec F S2048x512 .f32 := broadcastInDim S2048x512 ![] bcast_S_S2048x512 main_cst_22
  let main_v61 : IVec S2048x512 1 := cmpf .olt main_v59 main_v60
  let main_c_23 : IVec S_ 1 := constantI S_ 1 1#1
  let main_v62 : IVec S_ 1 := (fun x v => Host.reduce IntOp.andi x v reducesTo_S2048x512_S_d0_1 h_S_) main_v61 main_c_23
  let main_v63 : IVec S_ 1 := andi main_v58 main_v62
  let main_v64 : FVec F S2048x256 .f32 := Host.absf main_arg13
  let main_cst_24 : FVec F S_ .f32 := constant S_ .f32 0x7F800000#32
  let main_v65 : FVec F S2048x256 .f32 := broadcastInDim S2048x256 ![] bcast_S_S2048x256 main_cst_24
  let main_v66 : IVec S2048x256 1 := cmpf .olt main_v64 main_v65
  let main_c_25 : IVec S_ 1 := constantI S_ 1 1#1
  let main_v67 : IVec S_ 1 := (fun x v => Host.reduce IntOp.andi x v reducesTo_S2048x256_S_d0_1 h_S_) main_v66 main_c_25
  fn_part4 (F := F) main_v63 main_v67

def fn_part2 {F : FTy → Type} [FloatOps F] (main_arg7 : FVec F S512x2048 .f32) (main_arg8 : FVec F S256x2048 .f32) (main_arg9 : FVec F S256x2048 .f32) (main_arg10 : FVec F S256x256 .f32) (main_arg11 : FVec F S2048x512 .f32) (main_arg12 : FVec F S2048x512 .f32) (main_arg13 : FVec F S2048x256 .f32) (main_v33 : IVec S_ 1) : IVec S_ 1 :=
  let main_v34 : FVec F S512x2048 .f32 := Host.absf main_arg7
  let main_cst_12 : FVec F S_ .f32 := constant S_ .f32 0x7F800000#32
  let main_v35 : FVec F S512x2048 .f32 := broadcastInDim S512x2048 ![] bcast_S_S512x2048 main_cst_12
  let main_v36 : IVec S512x2048 1 := cmpf .olt main_v34 main_v35
  let main_c_13 : IVec S_ 1 := constantI S_ 1 1#1
  let main_v37 : IVec S_ 1 := (fun x v => Host.reduce IntOp.andi x v reducesTo_S512x2048_S_d0_1 h_S_) main_v36 main_c_13
  let main_v38 : IVec S_ 1 := andi main_v33 main_v37
  let main_v39 : FVec F S256x2048 .f32 := Host.absf main_arg8
  let main_cst_14 : FVec F S_ .f32 := constant S_ .f32 0x7F800000#32
  let main_v40 : FVec F S256x2048 .f32 := broadcastInDim S256x2048 ![] bcast_S_S256x2048 main_cst_14
  let main_v41 : IVec S256x2048 1 := cmpf .olt main_v39 main_v40
  let main_c_15 : IVec S_ 1 := constantI S_ 1 1#1
  let main_v42 : IVec S_ 1 := (fun x v => Host.reduce IntOp.andi x v reducesTo_S256x2048_S_d0_1 h_S_) main_v41 main_c_15
  let main_v43 : IVec S_ 1 := andi main_v38 main_v42
  let main_v44 : FVec F S256x2048 .f32 := Host.absf main_arg9
  let main_cst_16 : FVec F S_ .f32 := constant S_ .f32 0x7F800000#32
  let main_v45 : FVec F S256x2048 .f32 := broadcastInDim S256x2048 ![] bcast_S_S256x2048 main_cst_16
  let main_v46 : IVec S256x2048 1 := cmpf .olt main_v44 main_v45
  let main_c_17 : IVec S_ 1 := constantI S_ 1 1#1
  let main_v47 : IVec S_ 1 := (fun x v => Host.reduce IntOp.andi x v reducesTo_S256x2048_S_d0_1 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_v48 main_v49 main_v50

def fn_part1 {F : FTy → Type} [FloatOps F] (main_arg4 : FVec F S2048x512 .f32) (main_arg5 : FVec F S2048 .f32) (main_arg6 : FVec F S512x2048 .f32) (main_arg7 : FVec F S512x2048 .f32) (main_arg8 : FVec F S256x2048 .f32) (main_arg9 : FVec F S256x2048 .f32) (main_arg10 : FVec F S256x256 .f32) (main_arg11 : FVec F S2048x512 .f32) (main_arg12 : FVec F S2048x512 .f32) (main_arg13 : FVec F S2048x256 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512x2048 .f32 := Host.absf main_arg6
  let main_cst_10 : FVec F S_ .f32 := constant S_ .f32 0x7F800000#32
  let main_v30 : FVec F S512x2048 .f32 := broadcastInDim S512x2048 ![] bcast_S_S512x2048 main_cst_10
  let main_v31 : IVec S512x2048 1 := cmpf .olt main_v29 main_v30
  let main_c_11 : IVec S_ 1 := constantI S_ 1 1#1
  let main_v32 : IVec S_ 1 := (fun x v => Host.reduce IntOp.andi x v reducesTo_S512x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S8192x2048 .f32) (main_arg1 : FVec F S8192x512 .f32) (main_arg2 : FVec F S8192x2048 .f32) (main_arg3 : FVec F S8192x2048 .f32) (main_arg4 : FVec F S2048x512 .f32) (main_arg5 : FVec F S2048 .f32) (main_arg6 : FVec F S512x2048 .f32) (main_arg7 : FVec F S512x2048 .f32) (main_arg8 : FVec F S256x2048 .f32) (main_arg9 : FVec F S256x2048 .f32) (main_arg10 : FVec F S256x256 .f32) (main_arg11 : FVec F S2048x512 .f32) (main_arg12 : FVec F S2048x512 .f32) (main_arg13 : FVec F S2048x256 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S8192x2048 : Shape := ⟨2, ![8192, 2048]⟩
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S256x2048 : Shape := ⟨2, ![256, 2048]⟩
abbrev S256x256 : Shape := ⟨2, ![256, 256]⟩
abbrev S2048x256 : Shape := ⟨2, ![2048, 256]⟩
abbrev S768x2048 : Shape := ⟨2, ![768, 2048]⟩
abbrev S2048x768 : Shape := ⟨2, ![2048, 768]⟩
abbrev S1x2048 : Shape := ⟨2, ![1, 2048]⟩
abbrev S256x512 : Shape := ⟨2, ![256, 512]⟩
abbrev S256x768 : Shape := ⟨2, ![256, 768]⟩

abbrev nBuf : Space → Nat
  | .hbm => 26
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S2048, .f32⟩
  | .hbm, ⟨6, _⟩ => ⟨S512x2048, .f32⟩
  | .hbm, ⟨7, _⟩ => ⟨S512x2048, .f32⟩
  | .hbm, ⟨8, _⟩ => ⟨S256x2048, .f32⟩
  | .hbm, ⟨9, _⟩ => ⟨S256x2048, .f32⟩
  | .hbm, ⟨10, _⟩ => ⟨S256x256, .f32⟩
  | .hbm, ⟨11, _⟩ => ⟨S2048x512, .f32⟩
  | .hbm, ⟨12, _⟩ => ⟨S2048x512, .f32⟩
  | .hbm, ⟨13, _⟩ => ⟨S2048x256, .f32⟩
  | .hbm, ⟨14, _⟩ => ⟨S2048x512, .bf16⟩
  | .hbm, ⟨15, _⟩ => ⟨S768x2048, .f32⟩
  | .hbm, ⟨16, _⟩ => ⟨S768x2048, .bf16⟩
  | .hbm, ⟨17, _⟩ => ⟨S768x2048, .f32⟩
  | .hbm, ⟨18, _⟩ => ⟨S768x2048, .bf16⟩
  | .hbm, ⟨19, _⟩ => ⟨S256x256, .bf16⟩
  | .hbm, ⟨20, _⟩ => ⟨S2048x512, .bf16⟩
  | .hbm, ⟨21, _⟩ => ⟨S2048x768, .f32⟩
  | .hbm, ⟨22, _⟩ => ⟨S2048x768, .bf16⟩
  | .hbm, ⟨23, _⟩ => ⟨S1x2048, .f32⟩
  | .hbm, ⟨24, _⟩ => ⟨S8192x2048, .f32⟩
  | .hbm, ⟨25, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S2048x512, .bf16⟩
  | .local _ .vmem, ⟨10, _⟩ => ⟨S768x2048, .bf16⟩
  | .local _ .vmem, ⟨11, _⟩ => ⟨S768x2048, .bf16⟩
  | .local _ .vmem, ⟨12, _⟩ => ⟨S256x256, .bf16⟩
  | .local _ .vmem, ⟨13, _⟩ => ⟨S2048x512, .bf16⟩
  | .local _ .vmem, ⟨14, _⟩ => ⟨S2048x768, .bf16⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10_0 : Ref sig .tc := ⟨.hbm, 24, rfl⟩
abbrev main_v10_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x768 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  concatenates_S512x2048_S256x2048_S768x2048_d0 : Shape.Concatenates [S512x2048, S256x2048] S768x2048 0
  concatenates_S2048x512_S2048x256_S2048x768_d1 : Shape.Concatenates [S2048x512, S2048x256] S2048x768 1
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x512_S256x512_0_0 : ∀ a, (![0, 0] : Fin 2 → Nat) a + S256x512.size a ≤ S256x512.size a
  h_S256x512 : 0 < S256x512.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x2048_S256x2048 : S1x2048.Broadcasts S256x2048
  inb_S768x2048_S768x2048_0_0 : ∀ a, (![0, 0] : Fin 2 → Nat) a + S768x2048.size a ≤ S768x2048.size a
  h_S768x2048 : 0 < S768x2048.numel
  shapeCasts_S768x2048_S768x2048 : S768x2048.ShapeCasts S768x2048
  slices_S256x768_o0_0_S256x512 : S256x768.Slices ![0, 0] S256x512
  slices_S256x768_o0_512_S256x256 : S256x768.Slices ![0, 512] S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  concatenates_S256x512_S256x256_S256x768_d1 : Shape.Concatenates [S256x512, S256x256] S256x768 1
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  dot_S256x512_S2048x512_S256x2048_1_1_0_0_n_n_wf : DotDims.WF S256x512 S2048x512 S256x2048 [1] [1] [0] [0] [] []
  dot_S256x2048_S768x2048_S256x768_1_1_0_0_n_n_wf : DotDims.WF S256x2048 S768x2048 S256x768 [1] [1] [0] [0] [] []
  dot_S256x256_S256x256_S256x256_1_1_0_0_n_n_wf : DotDims.WF S256x256 S256x256 S256x256 [1] [1] [0] [0] [] []
  dot_S256x768_S2048x768_S256x2048_1_1_0_0_n_n_wf : DotDims.WF S256x768 S2048x768 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x512.size a
  hwx0_5 : ∀ i : grid0.Coords, EltTy.bits .bf16 = 32 ∨ (Rect.block (s := S2048x512) S2048x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x2048.size a ≤ S768x2048.size a
  hwx0_6 : ∀ i : grid0.Coords, EltTy.bits .bf16 = 32 ∨ (Rect.block (s := S768x2048) S768x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x2048.size a ≤ S768x2048.size a
  hwx0_7 : ∀ i : grid0.Coords, EltTy.bits .bf16 = 32 ∨ (Rect.block (s := S768x2048) S768x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .bf16 = 32 ∨ (Rect.block (s := S256x256) S256x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x512.size a ≤ S2048x512.size a
  hwx0_9 : ∀ i : grid0.Coords, EltTy.bits .bf16 = 32 ∨ (Rect.block (s := S2048x512) S2048x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x768.size a ≤ S2048x768.size a
  hwx0_10 : ∀ i : grid0.Coords, EltTy.bits .bf16 = 32 ∨ (Rect.block (s := S2048x768) S2048x768.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S8192x2048.size a
  hwx0_11 : ∀ i : grid0.Coords, EltTy.bits .f32 = 32 ∨ (Rect.block (s := S8192x2048) S256x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x2048.size a ≤ S8192x2048.size a
  hwx0_12 : ∀ i : grid0.Coords, EltTy.bits .f32 = 32 ∨ (Rect.block (s := S8192x2048) S256x2048.size (cc0_transform_12 i) (hinb0_12 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S768x2048_S256x768_1_1_0_0_n_n : DotDims S256x2048 S768x2048 S256x768 where
  lhsContracting := [1]
  rhsContracting := [1]
  lhsNonContracting := [0]
  rhsNonContracting := [0]
  lhsBatch := []
  rhsBatch := []
  wf := dot_S256x2048_S768x2048_S256x768_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x768_S2048x768_S256x2048_1_1_0_0_n_n : DotDims S256x768 S2048x768 S256x2048 where
  lhsContracting := [1]
  rhsContracting := [1]
  lhsNonContracting := [0]
  rhsNonContracting := [0]
  lhsBatch := []
  rhsBatch := []
  wf := dot_S256x768_S2048x768_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S768x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S768x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2048x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S2048x768.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10_0) S256x2048.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v10_1) S256x2048.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S256x2048 : Shape := ⟨2, ![256, 2048]⟩
abbrev S256x256 : Shape := ⟨2, ![256, 256]⟩
abbrev S2048x256 : Shape := ⟨2, ![2048, 256]⟩
abbrev S1x2048 : Shape := ⟨2, ![1, 2048]⟩
abbrev S_ : Shape := ⟨0, ![]⟩
abbrev S8192x256 : Shape := ⟨2, ![8192, 256]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x512, .f32⟩
  | .hbm, ⟨2, _⟩ => ⟨S8192x2048, .f32⟩
  | .hbm, ⟨3, _⟩ => ⟨S8192x2048, .f32⟩
  | .hbm, ⟨4, _⟩ => ⟨S2048x512, .f32⟩
  | .hbm, ⟨5, _⟩ => ⟨S2048, .f32⟩
  | .hbm, ⟨6, _⟩ => ⟨S512x2048, .f32⟩
  | .hbm, ⟨7, _⟩ => ⟨S512x2048, .f32⟩
  | .hbm, ⟨8, _⟩ => ⟨S256x2048, .f32⟩
  | .hbm, ⟨9, _⟩ => ⟨S256x2048, .f32⟩
  | .hbm, ⟨10, _⟩ => ⟨S256x256, .f32⟩
  | .hbm, ⟨11, _⟩ => ⟨S2048x512, .f32⟩
  | .hbm, ⟨12, _⟩ => ⟨S2048x512, .f32⟩
  | .hbm, ⟨13, _⟩ => ⟨S2048x256, .f32⟩
  | .hbm, ⟨14, _⟩ => ⟨S512x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S2048x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S2048x512, .f32⟩
  | .hbm, ⟨25, _⟩ => ⟨S8192x512, .f32⟩
  | .hbm, ⟨26, _⟩ => ⟨S_, .f32⟩
  | .hbm, ⟨27, _⟩ => ⟨S8192x512, .f32⟩
  | .hbm, ⟨28, _⟩ => ⟨S8192x512, .f32⟩
  | .hbm, ⟨29, _⟩ => ⟨S2048x256, .f32⟩
  | .hbm, ⟨30, _⟩ => ⟨S8192x256, .f32⟩
  | .hbm, ⟨31, _⟩ => ⟨S_, .f32⟩
  | .hbm, ⟨32, _⟩ => ⟨S8192x256, .f32⟩
  | .hbm, ⟨33, _⟩ => ⟨S8192x256, .f32⟩
  | .hbm, ⟨34, _⟩ => ⟨S2048x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S256x256, .f32⟩
  | .hbm, ⟨40, _⟩ => ⟨S8192x256, .f32⟩
  | .hbm, ⟨41, _⟩ => ⟨S8192x256, .f32⟩
  | .hbm, ⟨42, _⟩ => ⟨S_, .f32⟩
  | .hbm, ⟨43, _⟩ => ⟨S8192x256, .f32⟩
  | .hbm, ⟨44, _⟩ => ⟨S8192x256, .f32⟩
  | .hbm, ⟨45, _⟩ => ⟨S8192x2048, .f32⟩
  | .hbm, ⟨46, _⟩ => ⟨S512x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S512x2048, .f32⟩
  | .hbm, ⟨54, _⟩ => ⟨S8192x2048, .f32⟩
  | .hbm, ⟨55, _⟩ => ⟨S8192x2048, .f32⟩
  | .hbm, ⟨56, _⟩ => ⟨S256x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S_, .f32⟩
  | .hbm, ⟨70, _⟩ => ⟨S8192x2048, .f32⟩
  | .hbm, ⟨71, _⟩ => ⟨S8192x2048, .f32⟩
  | .hbm, ⟨72, _⟩ => ⟨S_, .f32⟩
  | .hbm, ⟨73, _⟩ => ⟨S8192x2048, .f32⟩
  | .hbm, ⟨74, _⟩ => ⟨S8192x2048, .f32⟩
  | .hbm, ⟨75, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_call0_cst : Ref sig .tc := ⟨.hbm, 21, rfl⟩
abbrev main_call0_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_cst : Ref sig .tc := ⟨.hbm, 26, rfl⟩
abbrev main_call1_v0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call2_cst : Ref sig .tc := ⟨.hbm, 31, rfl⟩
abbrev main_call2_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_call3_cst : Ref sig .tc := ⟨.hbm, 36, rfl⟩
abbrev main_call3_v0 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call4_cst : Ref sig .tc := ⟨.hbm, 42, rfl⟩
abbrev main_call4_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call5_cst : Ref sig .tc := ⟨.hbm, 49, rfl⟩
abbrev main_call5_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call6_cst : Ref sig .tc := ⟨.hbm, 59, rfl⟩
abbrev main_call6_v0 : Ref sig .tc := ⟨.hbm, 60, rfl⟩
abbrev main_v33 : Ref sig .tc := ⟨.hbm, 61, rfl⟩
abbrev main_cst : Ref sig .tc := ⟨.hbm, 62, rfl⟩
abbrev main_v34 : Ref sig .tc := ⟨.hbm, 63, rfl⟩
abbrev main_v35 : Ref sig .tc := ⟨.hbm, 64, rfl⟩
abbrev main_cst_0 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_1 : Ref sig .tc := ⟨.hbm, 69, rfl⟩
abbrev main_v39 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩

abbrev nD : Nat := 1
abbrev τ : Topo := Topo.v7x

variable {F : FTy → Type} [FloatOps F]

class Facts₀ : Prop where
  transposes_S2048x512_S512x2048_1_0 : S2048x512.Transposes [1, 0] S512x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S512x2048_S2048x512_1_0 : S512x2048.Transposes [1, 0] S2048x512
  bcast_S_S8192x512 : S_.BroadcastsInDim S8192x512 (![] : Fin 0 → Fin S8192x512.rank)
  transposes_S256x2048_S2048x256_1_0 : S256x2048.Transposes [1, 0] S2048x256
  bcast_S_S8192x256 : S_.BroadcastsInDim S8192x256 (![] : Fin 0 → Fin S8192x256.rank)
  transposes_S256x256_S256x256_1_0 : S256x256.Transposes [1, 0] S256x256
  bcast_S_S8192x2048 : S_.BroadcastsInDim S8192x2048 (![] : Fin 0 → Fin S8192x2048.rank)
  transposes_S2048x256_S256x2048_1_0 : S2048x256.Transposes [1, 0] S256x2048
  dot_S8192x512_S512x2048_S8192x2048_1_0_0_1_n_n_wf : DotDims.WF S8192x512 S512x2048 S8192x2048 [1] [0] [0] [1] [] []
  dot_S8192x2048_S2048x512_S8192x512_1_0_0_1_n_n_wf : DotDims.WF S8192x2048 S2048x512 S8192x512 [1] [0] [0] [1] [] []
  dot_S8192x2048_S2048x256_S8192x256_1_0_0_1_n_n_wf : DotDims.WF S8192x2048 S2048x256 S8192x256 [1] [0] [0] [1] [] []
  dot_S8192x256_S256x256_S8192x256_1_0_0_1_n_n_wf : DotDims.WF S8192x256 S256x256 S8192x256 [1] [0] [0] [1] [] []
  dot_S8192x256_S256x2048_S8192x2048_1_0_0_1_n_n_wf : DotDims.WF S8192x256 S256x2048 S8192x2048 [1] [0] [0] [1] [] []

variable [Facts₀]

def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x2048_S2048x512_S8192x512_1_0_0_1_n_n : DotDims S8192x2048 S2048x512 S8192x512 where
  lhsContracting := [1]
  rhsContracting := [0]
  lhsNonContracting := [0]
  rhsNonContracting := [1]
  lhsBatch := []
  rhsBatch := []
  wf := dot_S8192x2048_S2048x512_S8192x512_1_0_0_1_n_n_wf
def dot_S8192x2048_S2048x256_S8192x256_1_0_0_1_n_n : DotDims S8192x2048 S2048x256 S8192x256 where
  lhsContracting := [1]
  rhsContracting := [0]
  lhsNonContracting := [0]
  rhsNonContracting := [1]
  lhsBatch := []
  rhsBatch := []
  wf := dot_S8192x2048_S2048x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x2048_S8192x2048_1_0_0_1_n_n : DotDims S8192x256 S256x2048 S8192x2048 where
  lhsContracting := [1]
  rhsContracting := [0]
  lhsNonContracting := [0]
  rhsNonContracting := [1]
  lhsBatch := []
  rhsBatch := []
  wf := dot_S8192x256_S256x2048_S8192x2048_1_0_0_1_n_n_wf

class Facts : Prop extends Facts₀ where

variable [Facts]
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibRowBroadcast.lean ====
/-
  A row vector `[1, b]` broadcast down the rows of an `[a, b]` array, and a flat `[b]` vector laid as a row and
  broadcast the same way, read at an entry: entry `(p, q)` of the result is entry `q` of the row.
-/
import Idealize.ShloMosaic.Lib.ValueIdx
import Idealize.ShloMosaic.Lib.Pipeline.Value

noncomputable section

namespace Idealize.ShloMosaic.RowBroadcast

open Idealize.ShloMosaic Idealize.ShloMosaic.ValueIdx

variable {a b : ℕ} {α : Type}

/-- The kernel-side broadcast of a `[1, b]` row to `[a, b]`: entry `(p, q)` is the row's entry `(0, q)`. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 (0 : Fin 1) q) := by
  refine broadcastTo_apply x h (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · rfl

/-- The host-side broadcast of a `[1, b]` row to `[a, b]` along both axes: entry `(p, q)` is the row's `(0, q)`. -/
theorem broadcastInDim_row_apply (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (p : Fin a) (q : Fin b) :
    broadcastInDim ⟨2, ![a, b]⟩ dims h x (ix2 p q) = x (ix2 (0 : Fin 1) q) := by
  refine broadcastInDim_apply dims h x (ix2 p q) (ix2 (0 : Fin 1) q) fun ax => ?_
  match ax with
  | ⟨0, _⟩ => simp
  | ⟨1, _⟩ =>
    by_cases hb : b = 1
    · subst hb
      have : q.val = 0 := by omega
      simp [this]
    · split
      · rename_i h1; exact absurd h1 hb
      · show q.val = ((ix2 p q : (⟨2, ![a, b]⟩ : Shape).Idx) (dims 1)).val
        rw [hd1]

/-- The host-side lay-out of a flat `[b]` vector as a `[1, b]` row (its one axis sent to axis 1): entry `(0, q)` is
    the vector's entry `q`. -/
theorem broadcastInDim_flat_apply (dims : Fin 1 → Fin 2) (hd : dims 0 = 1)
    (h : (⟨1, ![b]⟩ : Shape).BroadcastsInDim ⟨2, ![1, b]⟩ dims)
    (x : (⟨1, ![b]⟩ : Shape).Idx → α) (z : Fin 1) (q : Fin b) :
    broadcastInDim ⟨2, ![1, b]⟩ dims h x (ix2 z q) = x (ix1 q) := by
  refine broadcastInDim_apply dims h x (ix2 z q) (ix1 q) fun ax => ?_
  match ax with
  | ⟨0, _⟩ =>
    by_cases hb : b = 1
    · subst hb
      have : q.val = 0 := by omega
      simp [this]
    · split
      · rename_i h1; exact absurd h1 hb
      · show q.val = ((ix2 z q : (⟨2, ![1, b]⟩ : Shape).Idx) (dims 0)).val
        rw [hd]

/-- A `[b]` vector reshaped to a `[1, b]` row: entry `(0, q)` is the vector's entry `q`. -/
theorem shapeCast_flat_apply (x : (⟨1, ![b]⟩ : Shape).Idx → α)
    (h : (⟨1, ![b]⟩ : Shape).ShapeCasts ⟨2, ![1, b]⟩) (z : Fin 1) (q : Fin b) :
    shapeCast ⟨2, ![1, b]⟩ x h (ix2 z q) = x (ix1 q) := by
  refine shapeCast_apply x h (ix2 z q) (ix1 q) ?_
  have hz : z.val = 0 := by omega
  rw [Shape.rowMajor_val_one, Shape.rowMajor_val_two]
  show q.val = z.val * _ + q.val
  rw [hz, Nat.zero_mul, Nat.zero_add]

end Idealize.ShloMosaic.RowBroadcast

end
-- ==== Proof.LibRealEntries.lean ====
/-
  Extended reals that are real numbers, and the log-softmax rearrangement among them.

  An extended real is "real" when it is the image of a real number. Reals are closed under addition, subtraction,
  multiplication, the larger of two, and finite sums; the largest entry of a nonempty finite family of reals (the fold of
  `max` from `−∞`) is real and bounds every entry; the exponential of a real is a positive real, a nonempty finite
  sum of positive reals is a positive real, and the logarithm of a positive real is real.

  The rearrangement: for a nonempty finite family `z` of reals with largest entry `m` and
  `S = Σ_k exp (z k − m)`, `z c − (log S + m) = (z c − m) − log S`. On the extended reals subtraction does not
  distribute over a sum at the infinities; among reals both sides are the real number `z c − m − log S`.
-/
import Idealize.ShloMosaic.PureOps.Ideal.Laws

noncomputable section

namespace Idealize.ShloMosaic.RealEntries

open scoped BigOperators

/-- An extended real that is (the image of) a real number. -/
def IsReal (a : EReal) : Prop := ∃ r : ℝ, a = (r : EReal)

/-- An extended real that is a positive real number. -/
def IsPosReal (a : EReal) : Prop := ∃ r : ℝ, 0 < r ∧ a = (r : EReal)

theorem isReal_coe (r : ℝ) : IsReal (r : EReal) := ⟨r, rfl⟩

theorem isReal_zero : IsReal 0 := ⟨0, rfl⟩

theorem isReal_iff {a : EReal} : IsReal a ↔ a ≠ ⊤ ∧ a ≠ ⊥ := by
  constructor
  · rintro ⟨r, rfl⟩
    exact ⟨EReal.coe_ne_top r, EReal.coe_ne_bot r⟩
  · rintro ⟨h1, h2⟩
    exact ⟨a.toReal, (EReal.coe_toReal h1 h2).symm⟩

theorem IsPosReal.isReal {a : EReal} (h : IsPosReal a) : IsReal a := by
  obtain ⟨r, _, rfl⟩ := h
  exact ⟨r, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- The embedding of the reals carries the larger of two reals to the larger of their images. -/
theorem coe_max (r s : ℝ) : ((max r s : ℝ) : EReal) = max (r : EReal) (s : EReal) :=
  (EReal.coe_strictMono.monotone).map_max

theorem IsReal.max {a b : EReal} (ha : IsReal a) (hb : IsReal b) : IsReal (max a b) := by
  obtain ⟨r, rfl⟩ := ha
  obtain ⟨s, rfl⟩ := hb
  exact ⟨Max.max r s, (coe_max r s).symm⟩

/-- The embedding of the reals carries a finite sum to the sum of the images. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ k ∈ s, IsReal (f k)) :
    IsReal (∑ k ∈ s, f k) := by
  classical
  induction s using Finset.induction_on with
  | empty => simpa using isReal_zero
  | insert a s ha ih =>
    rw [Finset.sum_insert ha]
    exact (h a (Finset.mem_insert_self a s)).add (ih fun k hk => h k (Finset.mem_insert_of_mem hk))

/-- A sum of reals over a whole finite index type is real. -/
theorem isReal_sum_univ {ι : Type*} [Fintype ι] (f : ι → EReal) (h : ∀ k, IsReal (f k)) : IsReal (∑ k, f k) :=
  isReal_sum Finset.univ f fun k _ => h k

/-- A nonempty finite sum of positive reals is a positive real. -/
theorem isPosReal_sum {ι : Type*} (s : Finset ι) (hs : s.Nonempty) (f : ι → EReal) (h : ∀ k ∈ s, IsPosReal (f k)) :
    IsPosReal (∑ k ∈ s, f k) := by
  classical
  have hg : ∀ k : ι, ∃ r : ℝ, k ∈ s → (0 < r ∧ f k = (r : EReal)) := fun k => by
    by_cases hk : k ∈ s
    · obtain ⟨r, hr, e⟩ := h k hk
      exact ⟨r, fun _ => ⟨hr, e⟩⟩
    · exact ⟨0, fun hk' => absurd hk' hk⟩
  choose g hg using hg
  refine ⟨∑ k ∈ s, g k, Finset.sum_pos (fun k hk => (hg k hk).1) hs, ?_⟩
  rw [coe_sum]
  exact Finset.sum_congr rfl fun k hk => (hg k hk).2

/-- Every entry is at most the fold of `max` from `−∞`. -/
theorem le_foldMax {ι : Type*} [Fintype ι] (z : ι → EReal) (c : ι) :
    z c ≤ (Finset.univ : Finset ι).fold max ⊥ z :=
  (Finset.le_fold_max _).mpr (Or.inr ⟨c, Finset.mem_univ c, le_refl _⟩)

/-- The fold of `max` from `−∞` over a nonempty finite family of reals is real. -/
theorem isReal_foldMax {ι : Type*} [Fintype ι] [Nonempty ι] (z : ι → EReal) (h : ∀ k, IsReal (z k)) :
    IsReal ((Finset.univ : Finset ι).fold max ⊥ z) := by
  refine isReal_iff.mpr ⟨?_, ?_⟩
  · refine ne_of_lt ((Finset.fold_max_lt _).mpr ⟨bot_lt_top, fun k _ => ?_⟩)
    obtain ⟨r, hr⟩ := h k
    rw [hr]
    exact EReal.coe_lt_top r
  · obtain ⟨c⟩ := ‹Nonempty ι›
    obtain ⟨r, hr⟩ := h c
    refine ne_of_gt (lt_of_lt_of_le ?_ (le_foldMax z c))
    rw [hr]
    exact EReal.bot_lt_coe r

/-- The exponential of a real is a positive real. -/
theorem IsReal.exp_isPosReal {a : EReal} (ha : IsReal a) : IsPosReal (Ideal.exp a) := by
  obtain ⟨r, rfl⟩ := ha
  exact ⟨Real.exp r, Real.exp_pos r, rfl⟩

/-- The logarithm of a positive real is real. -/
theorem IsPosReal.log_isReal {a : EReal} (ha : IsPosReal a) : IsReal (Ideal.log a) := by
  obtain ⟨r, hr, rfl⟩ := ha
  refine ⟨Real.log r, ?_⟩
  rw [Ideal.log_coe, if_neg (not_le.mpr hr)]

/-- Among reals, subtracting a sum is subtracting its terms one after the other (in either order). -/
theorem IsReal.sub_add {a l m : EReal} (ha : IsReal a) (hl : IsReal l) (hm : IsReal m) :
    a - (l + m) = (a - m) - l := by
  obtain ⟨r, rfl⟩ := ha
  obtain ⟨s, rfl⟩ := hl
  obtain ⟨t, rfl⟩ := hm
  rw [← EReal.coe_add, ← EReal.coe_sub, ← EReal.coe_sub, ← EReal.coe_sub]
  exact congrArg _ (by ring)

/-- The shifted exponential sum of a nonempty finite family of reals is a positive real. -/
theorem isPosReal_expSum {ι : Type*} [Fintype ι] [Nonempty ι] (z : ι → EReal) (h : ∀ k, IsReal (z k)) :
    IsPosReal (∑ k, Ideal.exp (z k - (Finset.univ : Finset ι).fold max ⊥ z)) :=
  isPosReal_sum Finset.univ Finset.univ_nonempty _ fun k _ => ((h k).sub (isReal_foldMax z h)).exp_isPosReal

/-- The log-softmax rearrangement among reals: subtracting "log-sum-exp plus the largest entry" from an entry is
    subtracting the largest entry and then the log-sum-exp. -/
theorem sub_logSumExp_add_top {ι : Type*} [Fintype ι] [Nonempty ι] (z : ι → EReal) (h : ∀ k, IsReal (z k)) (c : ι) :
    z c - (Ideal.log (∑ k, Ideal.exp (z k - (Finset.univ : Finset ι).fold max ⊥ z))
            + (Finset.univ : Finset ι).fold max ⊥ z)
      = (z c - (Finset.univ : Finset ι).fold max ⊥ z)
          - Ideal.log (∑ k, Ideal.exp (z k - (Finset.univ : Finset ι).fold max ⊥ z)) :=
  (h c).sub_add (isPosReal_expSum z h).log_isReal (isReal_foldMax z h)

end Idealize.ShloMosaic.RealEntries

end
-- ==== Proof.Spec.lean ====
/-
  The interneuron circuit, one batch row at a time, on the extended reals.

  For one sample the circuit takes the input row x, the context row ctx and the weight matrices, and computes
    pred q   = Σ_k ctx k · Wp q k + b q                                  (top-down prediction)
    layer v W a = max (Σ_j v j · W a j) 0                                 (a rectified linear population)
    som s    = max (layer x Wsi s − Σ_u layer pred Wvt u · Wvs s u) 0
    pePos q  = max (x q − pred q − Σ_a layer pred W2 a · Wip q a) 0
    peNeg q  = max (pred q − x q − Σ_a layer x W1 a · Win q a − Σ_s som s · Wsd q s) 0
  and each output is the low-pass filter c₉ · r + c₁ · pe of the previous state r.

  Two arrangements of peNeg occur: the inhibition subtracted term after term, as above, or subtracted as ONE sum
  (Σ_a … + Σ_s …), which is what a single product over the concatenated populations gives. On the extended reals
  a − (s + t) and (a − s) − t differ when s and t are opposite infinities; among real numbers they agree, and every
  quantity of the circuit is real when its inputs are.
-/
import Idealize.ShloMosaic.Lib.ValueIdx
import proofs.«134026_j29145648071275_2_alg».proof.Proof.LibRealEntries

noncomputable section

namespace Circuit

open scoped BigOperators
open Idealize.ShloMosaic Idealize.ShloMosaic.ValueIdx Idealize.ShloMosaic.RealEntries

/-- The top-down prediction of unit q. -/
def pred (ctx : Fin 512 → EReal) (Wp : Fin 2048 → Fin 512 → EReal) (b : Fin 2048 → EReal) (q : Fin 2048) : EReal :=
  (∑ k : Fin 512, ctx k * Wp q k) + b q

/-- A rectified linear population driven by the row v through the weights W. -/
def layer {n k : ℕ} (v : Fin k → EReal) (W : Fin n → Fin k → EReal) (a : Fin n) : EReal :=
  max (∑ j : Fin k, v j * W a j) 0

/-- The SOM population: its feed-forward drive less the VIP population's inhibition, rectified. -/
def som (x p : Fin 2048 → EReal) (Wsi Wvt : Fin 256 → Fin 2048 → EReal) (Wvs : Fin 256 → Fin 256 → EReal)
    (s : Fin 256) : EReal :=
  max (layer x Wsi s - ∑ u : Fin 256, layer p Wvt u * Wvs s u) 0

/-- The positive prediction error of unit q. -/
def pePos (x p : Fin 2048 → EReal) (W2 : Fin 512 → Fin 2048 → EReal) (Wip : Fin 2048 → Fin 512 → EReal)
    (q : Fin 2048) : EReal :=
  max (x q - p q - ∑ a : Fin 512, layer p W2 a * Wip q a) 0

/-- The negative prediction error of unit q, the two inhibitions subtracted one after the other. -/
def peNeg (x p : Fin 2048 → EReal) (W1 : Fin 512 → Fin 2048 → EReal) (Win : Fin 2048 → Fin 512 → EReal)
    (sm : Fin 256 → EReal) (Wsd : Fin 2048 → Fin 256 → EReal) (q : Fin 2048) : EReal :=
  max (p q - x q - (∑ a : Fin 512, layer x W1 a * Win q a) - ∑ s : Fin 256, sm s * Wsd q s) 0

/-- The negative prediction error of unit q, the two inhibitions subtracted as one sum. -/
def peNegFused (x p : Fin 2048 → EReal) (W1 : Fin 512 → Fin 2048 → EReal) (Win : Fin 2048 → Fin 512 → EReal)
    (sm : Fin 256 → EReal) (Wsd : Fin 2048 → Fin 256 → EReal) (q : Fin 2048) : EReal :=
  max (p q - x q - ((∑ a : Fin 512, layer x W1 a * Win q a) + ∑ s : Fin 256, sm s * Wsd q s)) 0

/-! ## Everything is real when the inputs are -/

theorem isReal_layer {n k : ℕ} {v : Fin k → EReal} {W : Fin n → Fin k → EReal}
    (hv : ∀ j, IsReal (v j)) (hW : ∀ a j, IsReal (W a j)) (a : Fin n) : IsReal (layer v W a) :=
  (isReal_sum_univ _ fun j => (hv j).mul (hW a j)).max isReal_zero

theorem isReal_pred {ctx : Fin 512 → EReal} {Wp : Fin 2048 → Fin 512 → EReal} {b : Fin 2048 → EReal}
    (hc : ∀ k, IsReal (ctx k)) (hW : ∀ q k, IsReal (Wp q k)) (hb : ∀ q, IsReal (b q)) (q : Fin 2048) :
    IsReal (pred ctx Wp b q) :=
  (isReal_sum_univ _ fun k => (hc k).mul (hW q k)).add (hb q)

theorem isReal_som {x p : Fin 2048 → EReal} {Wsi Wvt : Fin 256 → Fin 2048 → EReal} {Wvs : Fin 256 → Fin 256 → EReal}
    (hx : ∀ j, IsReal (x j)) (hp : ∀ j, IsReal (p j)) (h1 : ∀ a j, IsReal (Wsi a j)) (h2 : ∀ a j, IsReal (Wvt a j))
    (h3 : ∀ s u, IsReal (Wvs s u)) (s : Fin 256) : IsReal (som x p Wsi Wvt Wvs s) :=
  ((isReal_layer hx h1 s).sub (isReal_sum_univ _ fun u => (isReal_layer hp h2 u).mul (h3 s u))).max isReal_zero

/-- Among reals the two arrangements of the negative prediction error agree. -/
theorem peNegFused_eq {x p : Fin 2048 → EReal} {W1 : Fin 512 → Fin 2048 → EReal} {Win : Fin 2048 → Fin 512 → EReal}
    {sm : Fin 256 → EReal} {Wsd : Fin 2048 → Fin 256 → EReal}
    (hx : ∀ j, IsReal (x j)) (hp : ∀ j, IsReal (p j)) (h1 : ∀ a j, IsReal (W1 a j)) (h2 : ∀ q a, IsReal (Win q a))
    (hs : ∀ s, IsReal (sm s)) (h3 : ∀ q s, IsReal (Wsd q s)) (q : Fin 2048) :
    peNegFused x p W1 Win sm Wsd q = peNeg x p W1 Win sm Wsd q := by
  unfold peNegFused peNeg
  have hA : IsReal (p q - x q) := (hp q).sub (hx q)
  have hS : IsReal (∑ a : Fin 512, layer x W1 a * Win q a) :=
    isReal_sum_univ _ fun a => (isReal_layer hx h1 a).mul (h2 q a)
  have hT : IsReal (∑ s : Fin 256, sm s * Wsd q s) := isReal_sum_univ _ fun s => (hs s).mul (h3 q s)
  rw [add_comm, hA.sub_add hT hS]

/-! ## A sum over a concatenation -/

/-- A sum over 768 = 512 + 256 positions splits at position 512. -/
theorem sum_split (f : Fin 768 → EReal) :
    ∑ j : Fin 768, f j
      = (∑ a : Fin 512, f ⟨a.val, by omega⟩) + ∑ s : Fin 256, f ⟨512 + s.val, by omega⟩ :=
  Fin.sum_univ_add (a := 512) (b := 256) (f : Fin (512 + 256) → EReal)

end Circuit

end
-- ==== Proof.Arrays.lean ====
/-
  The circuit over whole arrays.

  An [a, b] array is read a row at a time (row X r is the row r of X as a function of the column), a weight matrix as
  a function of its two coordinates, and a flat vector as a function of its one coordinate. The two results of the
  circuit over a batch are then, at batch row p and unit q, the filtered prediction errors of sample p:
    outPos (p, q) = c₉ · r⁺ (p, q) + c₁ · pePos(sample p) q,    outNeg (p, q) = c₉ · r⁻ (p, q) + c₁ · peNeg(sample p) q.
-/
import proofs.«134026_j29145648071275_2_alg».proof.Proof.Spec

noncomputable section

namespace Circuit

open scoped BigOperators
open Idealize.ShloMosaic Idealize.ShloMosaic.ValueIdx

/-- Row r of an [a, b] array, as a function of the column. -/
def row {a b : ℕ} (X : (⟨2, ![a, b]⟩ : Shape).Idx → EReal) (r : Fin a) : Fin b → EReal := fun j => X (ix2 r j)

/-- An [a, b] array as a function of its two coordinates. -/
def mat {a b : ℕ} (W : (⟨2, ![a, b]⟩ : Shape).Idx → EReal) : Fin a → Fin b → EReal := fun i j => W (ix2 i j)

/-- A flat [b] array as a function of its coordinate. -/
def vec {b : ℕ} (v : (⟨1, ![b]⟩ : Shape).Idx → EReal) : Fin b → EReal := fun q => v (ix1 q)

/-- The first 512 rows of a matrix of 768 rows. -/
def topRows {k : ℕ} (W : Fin 768 → Fin k → EReal) : Fin 512 → Fin k → EReal := fun a => W ⟨a.val, by omega⟩

/-- The last 256 rows of a matrix of 768 rows. -/
def botRows {k : ℕ} (W : Fin 768 → Fin k → EReal) : Fin 256 → Fin k → EReal := fun s => W ⟨512 + s.val, by omega⟩

/-- The first 512 columns of a matrix of 768 columns. -/
def leftCols {n : ℕ} (W : Fin n → Fin 768 → EReal) : Fin n → Fin 512 → EReal := fun q a => W q ⟨a.val, by omega⟩

/-- The last 256 columns of a matrix of 768 columns. -/
def rightCols {n : ℕ} (W : Fin n → Fin 768 → EReal) : Fin n → Fin 256 → EReal := fun q s => W q ⟨512 + s.val, by omega⟩

/-- The prediction of sample p. -/
def predRow (C : (⟨2, ![8192, 512]⟩ : Shape).Idx → EReal) (Wp : (⟨2, ![2048, 512]⟩ : Shape).Idx → EReal)
    (b : (⟨1, ![2048]⟩ : Shape).Idx → EReal) (p : Fin 8192) : Fin 2048 → EReal :=
  pred (row C p) (mat Wp) (vec b)

/-- The filtered positive prediction error over the batch. -/
def outPos (c9 c1 : EReal) (X : (⟨2, ![8192, 2048]⟩ : Shape).Idx → EReal) (C : (⟨2, ![8192, 512]⟩ : Shape).Idx → EReal)
    (Rp : (⟨2, ![8192, 2048]⟩ : Shape).Idx → EReal) (Wp : (⟨2, ![2048, 512]⟩ : Shape).Idx → EReal)
    (b : (⟨1, ![2048]⟩ : Shape).Idx → EReal) (W2 : (⟨2, ![512, 2048]⟩ : Shape).Idx → EReal)
    (Wip : (⟨2, ![2048, 512]⟩ : Shape).Idx → EReal) : (⟨2, ![8192, 2048]⟩ : Shape).Idx → EReal := fun i =>
  c9 * Rp (ix2 (i 0) (i 1)) + c1 * pePos (row X (i 0)) (predRow C Wp b (i 0)) (mat W2) (mat Wip) (i 1)

/-- The filtered negative prediction error over the batch. -/
def outNeg (c9 c1 : EReal) (X : (⟨2, ![8192, 2048]⟩ : Shape).Idx → EReal) (C : (⟨2, ![8192, 512]⟩ : Shape).Idx → EReal)
    (Rn : (⟨2, ![8192, 2048]⟩ : Shape).Idx → EReal) (Wp : (⟨2, ![2048, 512]⟩ : Shape).Idx → EReal)
    (b : (⟨1, ![2048]⟩ : Shape).Idx → EReal) (W1 : (⟨2, ![512, 2048]⟩ : Shape).Idx → EReal)
    (Wvt Wsi : (⟨2, ![256, 2048]⟩ : Shape).Idx → EReal) (Wvs : (⟨2, ![256, 256]⟩ : Shape).Idx → EReal)
    (Win : (⟨2, ![2048, 512]⟩ : Shape).Idx → EReal) (Wsd : (⟨2, ![2048, 256]⟩ : Shape).Idx → EReal) :
    (⟨2, ![8192, 2048]⟩ : Shape).Idx → EReal := fun i =>
  c9 * Rn (ix2 (i 0) (i 1))
    + c1 * peNeg (row X (i 0)) (predRow C Wp b (i 0)) (mat W1) (mat Win)
        (som (row X (i 0)) (predRow C Wp b (i 0)) (mat Wsi) (mat Wvt) (mat Wvs)) (mat Wsd) (i 1)

/-- The filtered negative prediction error over the batch, the two inhibitions subtracted as one sum. -/
def outNegFused (c9 c1 : EReal) (X : (⟨2, ![8192, 2048]⟩ : Shape).Idx → EReal) (C : (⟨2, ![8192, 512]⟩ : Shape).Idx → EReal)
    (Rn : (⟨2, ![8192, 2048]⟩ : Shape).Idx → EReal) (Wp : (⟨2, ![2048, 512]⟩ : Shape).Idx → EReal)
    (b : (⟨1, ![2048]⟩ : Shape).Idx → EReal) (W1 : (⟨2, ![512, 2048]⟩ : Shape).Idx → EReal)
    (Wvt Wsi : (⟨2, ![256, 2048]⟩ : Shape).Idx → EReal) (Wvs : (⟨2, ![256, 256]⟩ : Shape).Idx → EReal)
    (Win : (⟨2, ![2048, 512]⟩ : Shape).Idx → EReal) (Wsd : (⟨2, ![2048, 256]⟩ : Shape).Idx → EReal) :
    (⟨2, ![8192, 2048]⟩ : Shape).Idx → EReal := fun i =>
  c9 * Rn (ix2 (i 0) (i 1))
    + c1 * peNegFused (row X (i 0)) (predRow C Wp b (i 0)) (mat W1) (mat Win)
        (som (row X (i 0)) (predRow C Wp b (i 0)) (mat Wsi) (mat Wvt) (mat Wvs)) (mat Wsd) (i 1)

open Idealize.ShloMosaic.RealEntries in
/-- When every entry of the inputs the error depends on is real, the two arrangements give the same array. -/
theorem outNegFused_eq (c9 c1 : EReal) {X : (⟨2, ![8192, 2048]⟩ : Shape).Idx → EReal}
    {C : (⟨2, ![8192, 512]⟩ : Shape).Idx → EReal} (Rn : (⟨2, ![8192, 2048]⟩ : Shape).Idx → EReal)
    {Wp : (⟨2, ![2048, 512]⟩ : Shape).Idx → EReal} {b : (⟨1, ![2048]⟩ : Shape).Idx → EReal}
    {W1 : (⟨2, ![512, 2048]⟩ : Shape).Idx → EReal} {Wvt Wsi : (⟨2, ![256, 2048]⟩ : Shape).Idx → EReal}
    {Wvs : (⟨2, ![256, 256]⟩ : Shape).Idx → EReal} {Win : (⟨2, ![2048, 512]⟩ : Shape).Idx → EReal}
    {Wsd : (⟨2, ![2048, 256]⟩ : Shape).Idx → EReal}
    (hX : ∀ i, IsReal (X i)) (hC : ∀ i, IsReal (C i)) (hWp : ∀ i, IsReal (Wp i)) (hb : ∀ i, IsReal (b i))
    (hW1 : ∀ i, IsReal (W1 i)) (hWvt : ∀ i, IsReal (Wvt i)) (hWsi : ∀ i, IsReal (Wsi i)) (hWvs : ∀ i, IsReal (Wvs i))
    (hWin : ∀ i, IsReal (Win i)) (hWsd : ∀ i, IsReal (Wsd i)) :
    outNegFused c9 c1 X C Rn Wp b W1 Wvt Wsi Wvs Win Wsd = outNeg c9 c1 X C Rn Wp b W1 Wvt Wsi Wvs Win Wsd := by
  funext i
  obtain ⟨p, q, rfl⟩ : ∃ (p : Fin 8192) (q : Fin 2048), i = ix2 p q := ⟨i 0, i 1, eq_ix2 i⟩
  have hx : ∀ j, IsReal (row X p j) := fun j => hX _
  have hp : ∀ j, IsReal (predRow C Wp b p j) :=
    isReal_pred (ctx := row C p) (Wp := mat Wp) (b := vec b) (fun k => hC _) (fun q k => hWp _) (fun q => hb _)
  show c9 * Rn (ix2 p q)
      + c1 * peNegFused (row X p) (predRow C Wp b p) (mat W1) (mat Win)
          (som (row X p) (predRow C Wp b p) (mat Wsi) (mat Wvt) (mat Wvs)) (mat Wsd) q
    = c9 * Rn (ix2 p q)
      + c1 * peNeg (row X p) (predRow C Wp b p) (mat W1) (mat Win)
          (som (row X p) (predRow C Wp b p) (mat Wsi) (mat Wvt) (mat Wvs)) (mat Wsd) q
  rw [peNegFused_eq (W1 := mat W1) (Win := mat Win) (Wsd := mat Wsd) hx hp (fun a j => hW1 _) (fun q a => hWin _)
    (isReal_som (Wsi := mat Wsi) (Wvt := mat Wvt) (Wvs := mat Wvs) hx hp (fun a j => hWsi _) (fun a j => hWvt _)
      (fun s u => hWvs _)) (fun q s => hWsd _) q]

end Circuit

end
-- ==== Proof.KernelRows.lean ====
/-
  The kernel body's values, one row of the block at a time.

  At one grid point the body sees a block of 256 batch rows of x, of the context and of the two previous states, and
  the whole (fused) weight matrices. Each of its intermediate values at local row r depends on row r of the blocks only:
  the prediction, the two fused rectified populations (768 units each: the first 512 and the last 256 are read back by
  slices), the positive prediction error, and — for the negative one — a single product over the concatenation of the
  first population's 512 units with the 256 SOM units, which is the sum of the two separate inhibitions.
-/
import proofs.«134026_j29145648071275_2_alg».proof.Proof.Gen.KernelIdeal.Skeleton
import proofs.«134026_j29145648071275_2_alg».proof.Proof.LibRowOps
import proofs.«134026_j29145648071275_2_alg».proof.Proof.LibRowBroadcast
import proofs.«134026_j29145648071275_2_alg».proof.Proof.Arrays
import Idealize.ShloMosaic.Lib.Pipeline.Value
import Idealize.ShloMosaic.Lib.ValueIdx
import Idealize.ShloMosaic.PureOps.Ideal.Laws

noncomputable section

namespace Cert.KernelIdeal.Rows

open scoped BigOperators
open Cert.KernelIdeal Cert.KernelIdeal.Gen Idealize.ShloMosaic Idealize.ShloMosaic.ValueIdx
open Idealize.ShloMosaic.RowOps Idealize.ShloMosaic.RowBroadcast Circuit

/-! ## The four products' dimension records: which operand coordinate each index names -/

abbrev D1 := dot_S256x512_S2048x512_S256x2048_1_1_0_0_n_n
abbrev D2 := dot_S256x2048_S768x2048_S256x768_1_1_0_0_n_n
abbrev D3 := dot_S256x256_S256x256_S256x256_1_1_0_0_n_n
abbrev D4 := dot_S256x768_S2048x768_S256x2048_1_1_0_0_n_n

theorem d1_l0 (i : S256x2048.Idx) (q : D1.contr.Idx) : (D1.lhsIdx i q 0).val = (i 0).val := by
  unfold DotDims.lhsIdx
  rw [dif_neg (show ¬(0 : Fin S256x512.rank) ∈ D1.lhsBatch by decide), dif_pos (show (0 : Fin S256x512.rank) ∈ D1.lhsNonContracting by decide)]
  rfl
theorem d1_r0 (i : S256x2048.Idx) (q : D1.contr.Idx) : (D1.rhsIdx i q 0).val = (i 1).val := by
  unfold DotDims.rhsIdx
  rw [dif_neg (show ¬(0 : Fin S2048x512.rank) ∈ D1.rhsBatch by decide), dif_pos (show (0 : Fin S2048x512.rank) ∈ D1.rhsNonContracting by decide)]
  rfl
theorem d2_l0 (i : S256x768.Idx) (q : D2.contr.Idx) : (D2.lhsIdx i q 0).val = (i 0).val := by
  unfold DotDims.lhsIdx
  rw [dif_neg (show ¬(0 : Fin S256x2048.rank) ∈ D2.lhsBatch by decide), dif_pos (show (0 : Fin S256x2048.rank) ∈ D2.lhsNonContracting by decide)]
  rfl
theorem d2_r0 (i : S256x768.Idx) (q : D2.contr.Idx) : (D2.rhsIdx i q 0).val = (i 1).val := by
  unfold DotDims.rhsIdx
  rw [dif_neg (show ¬(0 : Fin S768x2048.rank) ∈ D2.rhsBatch by decide), dif_pos (show (0 : Fin S768x2048.rank) ∈ D2.rhsNonContracting by decide)]
  rfl
theorem d3_l0 (i : S256x256.Idx) (q : D3.contr.Idx) : (D3.lhsIdx i q 0).val = (i 0).val := by
  unfold DotDims.lhsIdx
  rw [dif_neg (show ¬(0 : Fin S256x256.rank) ∈ D3.lhsBatch by decide), dif_pos (show (0 : Fin S256x256.rank) ∈ D3.lhsNonContracting by decide)]
  rfl
theorem d3_r0 (i : S256x256.Idx) (q : D3.contr.Idx) : (D3.rhsIdx i q 0).val = (i 1).val := by
  unfold DotDims.rhsIdx
  rw [dif_neg (show ¬(0 : Fin S256x256.rank) ∈ D3.rhsBatch by decide), dif_pos (show (0 : Fin S256x256.rank) ∈ D3.rhsNonContracting by decide)]
  rfl
theorem d4_l0 (i : S256x2048.Idx) (q : D4.contr.Idx) : (D4.lhsIdx i q 0).val = (i 0).val := by
  unfold DotDims.lhsIdx
  rw [dif_neg (show ¬(0 : Fin S256x768.rank) ∈ D4.lhsBatch by decide), dif_pos (show (0 : Fin S256x768.rank) ∈ D4.lhsNonContracting by decide)]
  rfl
theorem d4_r0 (i : S256x2048.Idx) (q : D4.contr.Idx) : (D4.rhsIdx i q 0).val = (i 1).val := by
  unfold DotDims.rhsIdx
  rw [dif_neg (show ¬(0 : Fin S2048x768.rank) ∈ D4.rhsBatch by decide), dif_pos (show (0 : Fin S2048x768.rank) ∈ D4.rhsNonContracting by decide)]
  rfl

/-- The product of a [256, 512] block with a [2048, 512] matrix, both contracted along their second axis. -/
theorem mm1 (l : FVec Ideal S256x512 .bf16) (w : FVec Ideal S2048x512 .bf16) (r : Fin 256) (q : Fin 2048) :
    matmul D1 none l w (constant (F := Ideal) S256x2048 .f32 0x00000000#32) (ix2 r q)
      = ∑ j : Fin 512, l (ix2 r j) * w (ix2 q j) :=
  matmulT_zero_apply D1 none rfl rfl d1_l0 (fun i q => D1.lhsIdx_val_of_single rfl i q) d1_r0
    (fun i q => D1.rhsIdx_val_of_single rfl i q) l w r q

/-- The product of a [256, 2048] block with a [768, 2048] matrix. -/
theorem mm2 (l : FVec Ideal S256x2048 .bf16) (w : FVec Ideal S768x2048 .bf16) (r : Fin 256) (a : Fin 768) :
    matmul D2 none l w (constant (F := Ideal) S256x768 .f32 0x00000000#32) (ix2 r a)
      = ∑ j : Fin 2048, l (ix2 r j) * w (ix2 a j) :=
  matmulT_zero_apply D2 none rfl rfl d2_l0 (fun i q => D2.lhsIdx_val_of_single rfl i q) d2_r0
    (fun i q => D2.rhsIdx_val_of_single rfl i q) l w r a

/-- The product of a [256, 256] block with a [256, 256] matrix. -/
theorem mm3 (l : FVec Ideal S256x256 .bf16) (w : FVec Ideal S256x256 .bf16) (r : Fin 256) (s : Fin 256) :
    matmul D3 none l w (constant (F := Ideal) S256x256 .f32 0x00000000#32) (ix2 r s)
      = ∑ u : Fin 256, l (ix2 r u) * w (ix2 s u) :=
  matmulT_zero_apply D3 none rfl rfl d3_l0 (fun i q => D3.lhsIdx_val_of_single rfl i q) d3_r0
    (fun i q => D3.rhsIdx_val_of_single rfl i q) l w r s

/-- The product of a [256, 768] block with a [2048, 768] matrix. -/
theorem mm4 (l : FVec Ideal S256x768 .bf16) (w : FVec Ideal S2048x768 .bf16) (r : Fin 256) (q : Fin 2048) :
    matmul D4 none l w (constant (F := Ideal) S256x2048 .f32 0x00000000#32) (ix2 r q)
      = ∑ j : Fin 768, l (ix2 r j) * w (ix2 q j) :=
  matmulT_zero_apply D4 none rfl rfl d4_l0 (fun i q => D4.lhsIdx_val_of_single rfl i q) d4_r0
    (fun i q => D4.rhsIdx_val_of_single rfl i q) l w r q

/-- The zero word broadcast is 0. -/
theorem zero_word : (Scalar.ofBits (F := Ideal) .f32 0x00000000#32 : EReal) = 0 := Ideal.ofBits_zero_f32

/-! ## The slices of a [256, 768] value -/

theorem slice_lo (v : FVec Ideal S256x768 .f32) (r : Fin 256) (a : Fin 512) :
    extractStridedSlice S256x512 ![0, 0] v slices_S256x768_o0_0_S256x512 (ix2 r a) = v (ix2 r ⟨a.val, by omega⟩) :=
  extractStridedSlice_apply ![0, 0] v slices_S256x768_o0_0_S256x512 (ix2 r a) (ix2 r ⟨a.val, by omega⟩) fun ax => by
    match ax with
    | ⟨0, _⟩ => show r.val = 0 + r.val; omega
    | ⟨1, _⟩ => show a.val = 0 + a.val; omega

theorem slice_hi (v : FVec Ideal S256x768 .f32) (r : Fin 256) (s : Fin 256) :
    extractStridedSlice S256x256 ![0, 512] v slices_S256x768_o0_512_S256x256 (ix2 r s) = v (ix2 r ⟨512 + s.val, by omega⟩) :=
  extractStridedSlice_apply ![0, 512] v slices_S256x768_o0_512_S256x256 (ix2 r s) (ix2 r ⟨512 + s.val, by omega⟩) fun ax => by
    match ax with
    | ⟨0, _⟩ => show r.val = 0 + r.val; omega
    | ⟨1, _⟩ => show 512 + s.val = 512 + s.val; rfl

/-! ## The body's values at local row r -/

/-- The prediction at local row r, unit q. -/
theorem pay3_apply (v1 : Vec Ideal S256x512 .f32) (v3 : Vec Ideal S1x2048 .f32) (v5 : Vec Ideal S2048x512 .bf16)
    (r : Fin 256) (q : Fin 2048) :
    k0_pay3 (F := Ideal) v1 v3 v5 (ix2 r q) = pred (row v1 r) (mat v5) (row v3 0) q := by
  show matmul D1 none (truncf .bf16 v1 bitsLt_bf16_f32) (shapeCast S2048x512 v5 shapeCasts_S2048x512_S2048x512)
        (constant (F := Ideal) S256x2048 .f32 0x00000000#32) (ix2 r q)
      + broadcastTo S256x2048 (shapeCast S1x2048 v3 shapeCasts_S1x2048_S1x2048) broadcasts_S1x2048_S256x2048 (ix2 r q) = _
  rw [mm1, broadcastTo_row_apply, shapeCast_self, shapeCast_self]
  rfl

/-- A fused population of 768 units driven by the input block, at local row r, unit a. -/
theorem pay4_apply (v0 : Vec Ideal S256x2048 .f32) (v12 : Vec Ideal S768x2048 .bf16) (r : Fin 256) (a : Fin 768) :
    k0_pay4 (F := Ideal) v0 v12 (ix2 r a) = layer (row v0 r) (mat v12) a := by
  show max (matmul D2 none (truncf .bf16 v0 bitsLt_bf16_f32) (shapeCast S768x2048 v12 shapeCasts_S768x2048_S768x2048)
        (constant (F := Ideal) S256x768 .f32 0x00000000#32) (ix2 r a)) (Scalar.ofBits (F := Ideal) .f32 0x00000000#32) = _
  rw [mm2, shapeCast_self, zero_word]
  rfl

/-- The fused population driven by the prediction, at local row r, unit a. -/
theorem pay7_apply (v1 : Vec Ideal S256x512 .f32) (v3 : Vec Ideal S1x2048 .f32) (v5 : Vec Ideal S2048x512 .bf16)
    (v19 : Vec Ideal S768x2048 .bf16) (r : Fin 256) (a : Fin 768) :
    k0_pay7 (F := Ideal) v1 v3 v5 v19 (ix2 r a)
      = layer (pred (row v1 r) (mat v5) (row v3 0)) (mat v19) a := by
  show max (matmul D2 none (truncf .bf16 (k0_pay3 (F := Ideal) v1 v3 v5) bitsLt_bf16_f32)
        (shapeCast S768x2048 v19 shapeCasts_S768x2048_S768x2048)
        (constant (F := Ideal) S256x768 .f32 0x00000000#32) (ix2 r a)) (Scalar.ofBits (F := Ideal) .f32 0x00000000#32) = _
  rw [mm2, shapeCast_self, zero_word]
  unfold layer
  refine congrArg (fun z => max z 0) (Finset.sum_congr rfl fun j _ => ?_)
  exact congrArg (· * mat v19 a j) (pay3_apply v1 v3 v5 r j)

/-! ## The concatenation of a [256, 512] and a [256, 256] value along the columns -/

theorem cat_lo (x1 : FVec Ideal S256x512 .bf16) (x2 : FVec Ideal S256x256 .bf16) (r : Fin 256) (a : Fin 512) :
    concatenate S256x768 1 [⟨S256x512, x1⟩, ⟨S256x256, x2⟩] concatenates_S256x512_S256x256_S256x768_d1
      (ix2 r ⟨a.val, by omega⟩) = x1 (ix2 r a) :=
  concatenate_pair_apply_left 1 x1 x2 concatenates_S256x512_S256x256_S256x768_d1 (ix2 r ⟨a.val, by omega⟩) rfl (ix2 r a)
    fun b => by
      match b with
      | ⟨0, _⟩ => rfl
      | ⟨1, _⟩ => rfl

theorem cat_hi (x1 : FVec Ideal S256x512 .bf16) (x2 : FVec Ideal S256x256 .bf16) (r : Fin 256) (s : Fin 256) :
    concatenate S256x768 1 [⟨S256x512, x1⟩, ⟨S256x256, x2⟩] concatenates_S256x512_S256x256_S256x768_d1
      (ix2 r ⟨512 + s.val, by omega⟩) = x2 (ix2 r s) :=
  concatenate_pair_apply_right 1 x1 x2 concatenates_S256x512_S256x256_S256x768_d1 (ix2 r ⟨512 + s.val, by omega⟩) rfl rfl
    (ix2 r s)
    (fun b => by
      match b with
      | ⟨0, _⟩ => exact fun _ => rfl
      | ⟨1, _⟩ => exact fun h => absurd rfl h)
    (by show s.val + 512 = 512 + s.val; omega)

/-! ## The remaining values at local row r -/

/-- The first 512 units of the population driven by the input. -/
theorem pay5_apply (v0 : Vec Ideal S256x2048 .f32) (v12 : Vec Ideal S768x2048 .bf16) (r : Fin 256) (a : Fin 512) :
    k0_pay5 (F := Ideal) v0 v12 (ix2 r a) = layer (row v0 r) (topRows (mat v12)) a :=
  (slice_lo (k0_pay4 (F := Ideal) v0 v12) r a).trans (pay4_apply v0 v12 r ⟨a.val, by omega⟩)

/-- Its last 256 units. -/
theorem pay6_apply (v0 : Vec Ideal S256x2048 .f32) (v12 : Vec Ideal S768x2048 .bf16) (r : Fin 256) (s : Fin 256) :
    k0_pay6 (F := Ideal) v0 v12 (ix2 r s) = layer (row v0 r) (botRows (mat v12)) s :=
  (slice_hi (k0_pay4 (F := Ideal) v0 v12) r s).trans (pay4_apply v0 v12 r ⟨512 + s.val, by omega⟩)

/-- The last 256 units of the population driven by the prediction. -/
theorem pay8_apply (v1 : Vec Ideal S256x512 .f32) (v3 : Vec Ideal S1x2048 .f32) (v5 : Vec Ideal S2048x512 .bf16)
    (v19 : Vec Ideal S768x2048 .bf16) (r : Fin 256) (u : Fin 256) :
    k0_pay8 (F := Ideal) v1 v3 v5 v19 (ix2 r u)
      = layer (pred (row v1 r) (mat v5) (row v3 0)) (botRows (mat v19)) u :=
  (slice_hi (k0_pay7 (F := Ideal) v1 v3 v5 v19) r u).trans (pay7_apply v1 v3 v5 v19 r ⟨512 + u.val, by omega⟩)

/-- The positive prediction error at local row r, unit q. -/
theorem pay9_apply (v0 : Vec Ideal S256x2048 .f32) (v1 : Vec Ideal S256x512 .f32) (v3 : Vec Ideal S1x2048 .f32)
    (v5 : Vec Ideal S2048x512 .bf16) (v19 : Vec Ideal S768x2048 .bf16) (v28 : Vec Ideal S2048x512 .bf16)
    (r : Fin 256) (q : Fin 2048) :
    k0_pay9 (F := Ideal) v0 v1 v3 v5 v19 v28 (ix2 r q)
      = pePos (row v0 r) (pred (row v1 r) (mat v5) (row v3 0)) (topRows (mat v19)) (mat v28) q := by
  show max ((v0 (ix2 r q) - k0_pay3 (F := Ideal) v1 v3 v5 (ix2 r q))
      - matmul D1 none
          (truncf .bf16 (extractStridedSlice S256x512 ![0, 0] (k0_pay7 (F := Ideal) v1 v3 v5 v19) slices_S256x768_o0_0_S256x512)
            bitsLt_bf16_f32)
          (shapeCast S2048x512 v28 shapeCasts_S2048x512_S2048x512)
          (constant (F := Ideal) S256x2048 .f32 0x00000000#32) (ix2 r q))
      (Scalar.ofBits (F := Ideal) .f32 0x00000000#32) = _
  rw [mm1, shapeCast_self, zero_word, pay3_apply]
  unfold pePos
  refine congrArg (fun z => max (row v0 r q - pred (row v1 r) (mat v5) (row v3 0) q - z) 0)
    (Finset.sum_congr rfl fun a _ => ?_)
  exact congrArg (· * v28 (ix2 q a))
    ((slice_lo (k0_pay7 (F := Ideal) v1 v3 v5 v19) r a).trans (pay7_apply v1 v3 v5 v19 r ⟨a.val, by omega⟩))

/-- The filter: the first stored value. -/
theorem pay1_apply (v33 : FVec Ideal S256x2048 .f32) (v34 : Vec Ideal S256x2048 .f32) (c9 : EReal) (i : S256x2048.Idx) :
    k0_pay1 (F := Ideal) v33 v34 c9 i = c9 * v34 i + Ideal.ofBits .f32 0x3DCCCCCD#32 * v33 i := rfl

/-- The second stored value: the filtered negative prediction error, with the two inhibitions as ONE sum over the
    concatenated populations, split at position 512. -/
theorem pay2_apply (v0 : Vec Ideal S256x2048 .f32) (v9 : FVec Ideal S256x2048 .f32) (v17 : FVec Ideal S256x512 .f32)
    (v18 : FVec Ideal S256x256 .f32) (v25 : FVec Ideal S256x256 .f32) (v42 : Vec Ideal S256x256 .bf16)
    (v52 : Vec Ideal S2048x768 .bf16) (v58 : Vec Ideal S256x2048 .f32) (r : Fin 256) (q : Fin 2048) :
    k0_pay2 (F := Ideal) v0 v9 v17 v18 v25 v42 v52 v58 (ix2 r q)
      = Ideal.ofBits .f32 0x3F666666#32 * v58 (ix2 r q)
        + Ideal.ofBits .f32 0x3DCCCCCD#32
          * max (v9 (ix2 r q) - v0 (ix2 r q)
              - ((∑ a : Fin 512, v17 (ix2 r a) * leftCols (mat v52) q a)
                  + ∑ s : Fin 256, max (v18 (ix2 r s) - ∑ u : Fin 256, v25 (ix2 r u) * mat v42 s u) 0
                      * rightCols (mat v52) q s)) 0 := by
  show Ideal.ofBits .f32 0x3F666666#32 * v58 (ix2 r q)
      + Ideal.ofBits .f32 0x3DCCCCCD#32
        * max ((v9 (ix2 r q) - v0 (ix2 r q))
            - matmul D4 none
                (concatenate S256x768 1
                  [⟨S256x512, truncf .bf16 v17 bitsLt_bf16_f32⟩,
                   ⟨S256x256, truncf .bf16
                      (maximumf
                        (subf v18 (matmul D3 none (truncf .bf16 v25 bitsLt_bf16_f32)
                          (shapeCast S256x256 v42 shapeCasts_S256x256_S256x256)
                          (constant (F := Ideal) S256x256 .f32 0x00000000#32)))
                        (broadcast S256x256 (Scalar.ofBits (F := Ideal) .f32 0x00000000#32)))
                      bitsLt_bf16_f32⟩]
                  concatenates_S256x512_S256x256_S256x768_d1)
                (shapeCast S2048x768 v52 shapeCasts_S2048x768_S2048x768)
                (constant (F := Ideal) S256x2048 .f32 0x00000000#32) (ix2 r q))
            (Scalar.ofBits (F := Ideal) .f32 0x00000000#32) = _
  rw [mm4, sum_split, shapeCast_self, shapeCast_self, zero_word]
  refine congrArg (fun z => Ideal.ofBits .f32 0x3F666666#32 * v58 (ix2 r q)
      + Ideal.ofBits .f32 0x3DCCCCCD#32 * max (v9 (ix2 r q) - v0 (ix2 r q) - z) 0) ?_
  refine congrArg₂ (· + ·) (Finset.sum_congr rfl fun a _ => ?_) (Finset.sum_congr rfl fun s _ => ?_)
  · exact congrArg (· * v52 (ix2 q ⟨a.val, by omega⟩)) (cat_lo _ _ r a)
  · refine congrArg (· * v52 (ix2 q ⟨512 + s.val, by omega⟩)) ((cat_hi _ _ r s).trans ?_)
    show max (v18 (ix2 r s) - matmul D3 none (truncf .bf16 v25 bitsLt_bf16_f32) v42
        (constant (F := Ideal) S256x256 .f32 0x00000000#32) (ix2 r s)) 0 = _
    rw [mm3]
    rfl

/-! ## The two stored values as functions of the blocks -/

/-- The first output block at local row r, unit q. -/
theorem out_pos_row (x0 : Vec Ideal S256x2048 .f32) (x1 : Vec Ideal S256x512 .f32) (x2 : Vec Ideal S256x2048 .f32)
    (x4 : Vec Ideal S1x2048 .f32) (x5 : Vec Ideal S2048x512 .bf16) (x7 : Vec Ideal S768x2048 .bf16)
    (x9 : Vec Ideal S2048x512 .bf16) (r : Fin 256) (q : Fin 2048) :
    k0_pay1 (F := Ideal) (k0_pay9 (F := Ideal) x0 x1 x4 x5 x7 x9) x2 (Scalar.ofBits (F := Ideal) .f32 0x3F666666#32) (ix2 r q)
      = Ideal.ofBits .f32 0x3F666666#32 * x2 (ix2 r q)
        + Ideal.ofBits .f32 0x3DCCCCCD#32
          * pePos (row x0 r) (pred (row x1 r) (mat x5) (row x4 0)) (topRows (mat x7)) (mat x9) q := by
  rw [pay1_apply, pay9_apply]
  rfl

/-- The second output block at local row r, unit q. -/
theorem out_neg_row (x0 : Vec Ideal S256x2048 .f32) (x1 : Vec Ideal S256x512 .f32) (x3 : Vec Ideal S256x2048 .f32)
    (x4 : Vec Ideal S1x2048 .f32) (x5 : Vec Ideal S2048x512 .bf16) (x6 x7 : Vec Ideal S768x2048 .bf16)
    (x8 : Vec Ideal S256x256 .bf16) (x10 : Vec Ideal S2048x768 .bf16) (r : Fin 256) (q : Fin 2048) :
    k0_pay2 (F := Ideal) x0 (k0_pay3 (F := Ideal) x1 x4 x5) (k0_pay5 (F := Ideal) x0 x6) (k0_pay6 (F := Ideal) x0 x6)
        (k0_pay8 (F := Ideal) x1 x4 x5 x7) x8 x10 x3 (ix2 r q)
      = Ideal.ofBits .f32 0x3F666666#32 * x3 (ix2 r q)
        + Ideal.ofBits .f32 0x3DCCCCCD#32
          * peNegFused (row x0 r) (pred (row x1 r) (mat x5) (row x4 0)) (topRows (mat x6)) (leftCols (mat x10))
              (som (row x0 r) (pred (row x1 r) (mat x5) (row x4 0)) (botRows (mat x6)) (botRows (mat x7)) (mat x8))
              (rightCols (mat x10)) q := by
  rw [pay2_apply]
  simp only [pay3_apply, pay5_apply, pay6_apply, pay8_apply]
  rfl

end Cert.KernelIdeal.Rows

end
-- ==== Proof.KernelValue.lean ====
/-
  The kernel's two result arrays as functions of the argument arrays.

  Before the launch the host lays the bias out as a [1, 2048] row, stacks the two weight matrices of each fused
  population (rows 0–511 and 512–767 of a [768, 2048] matrix) and sets the two inhibition matrices side by side
  (columns 0–511 and 512–767 of a [2048, 768] matrix). Grid point t sees rows 256·t … 256·t + 255 of the four batch
  arrays and all of every weight, and writes the same rows of the two results; the 32 points' blocks cover them.
-/
import proofs.«134026_j29145648071275_2_alg».proof.Proof.Gen.KernelIdeal.Value
import proofs.«134026_j29145648071275_2_alg».proof.Proof.KernelRows
import Idealize.ShloMosaic.Lib.StableHlo.Run

noncomputable section

namespace Cert.KernelIdeal.Whole

open scoped BigOperators
open Cert.KernelIdeal Cert.KernelIdeal.Gen Idealize.ShloMosaic Idealize.ShloMosaic.TcCoe Idealize.SL.Sem
open Idealize.ShloMosaic.ValueIdx Idealize.ShloMosaic.RowBroadcast Circuit Cert.KernelIdeal.Rows
open Idealize.ShloMosaic.Pipeline (Dat)

variable (m : (ℓ : Loc nD τ sig) → Buf (Elt Ideal) ℓ) (ρ : Dev nD → PrngReg)

/-! ## The arrays the host prepares -/

theorem V_v0 (c : Dev nD) : (V m c main_v0 : S2048x512.Idx → EReal) = m ((c : Thread nD τ).loc main_arg4) := by
  dsimp only [Gen.V, Gen.hostOps0]; after_results; rfl

theorem V_v2 (c : Dev nD) : (V m c main_v2 : S768x2048.Idx → EReal)
    = concatenate S768x2048 0 [⟨S512x2048, m ((c : Thread nD τ).loc main_arg6)⟩, ⟨S256x2048, m ((c : Thread nD τ).loc main_arg9)⟩]
        concatenates_S512x2048_S256x2048_S768x2048_d0 := by
  dsimp only [Gen.V, Gen.hostOps0]; after_results; rfl

theorem V_v4 (c : Dev nD) : (V m c main_v4 : S768x2048.Idx → EReal)
    = concatenate S768x2048 0 [⟨S512x2048, m ((c : Thread nD τ).loc main_arg7)⟩, ⟨S256x2048, m ((c : Thread nD τ).loc main_arg8)⟩]
        concatenates_S512x2048_S256x2048_S768x2048_d0 := by
  dsimp only [Gen.V, Gen.hostOps0]; after_results; rfl

theorem V_v5 (c : Dev nD) : (V m c main_v5 : S256x256.Idx → EReal) = m ((c : Thread nD τ).loc main_arg10) := by
  dsimp only [Gen.V, Gen.hostOps0]; after_results; rfl

theorem V_v6 (c : Dev nD) : (V m c main_v6 : S2048x512.Idx → EReal) = m ((c : Thread nD τ).loc main_arg11) := by
  dsimp only [Gen.V, Gen.hostOps0]; after_results; rfl

theorem V_v8 (c : Dev nD) : (V m c main_v8 : S2048x768.Idx → EReal)
    = concatenate S2048x768 1 [⟨S2048x512, m ((c : Thread nD τ).loc main_arg12)⟩, ⟨S2048x256, m ((c : Thread nD τ).loc main_arg13)⟩]
        concatenates_S2048x512_S2048x256_S2048x768_d1 := by
  dsimp only [Gen.V, Gen.hostOps0]; after_results; rfl

theorem V_v9 (c : Dev nD) : (V m c main_v9 : S1x2048.Idx → EReal)
    = shapeCast S1x2048 (m ((c : Thread nD τ).loc main_arg5)) shapeCasts_S2048_S1x2048 := by
  dsimp only [Gen.V, Gen.hostOps0]; after_results; rfl

/-! ## The index maps over the grid -/

/-- The four batch windows and the two output windows sit at block row t; the others never move. -/
theorem idx_batch : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

theorem idx_const : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

theorem t_lt (t : Fin cfg0.N) : t.val < 32 := lt_of_lt_of_eq t.isLt N_0

/-- Global batch row of local row r at point t. -/
def grow (t : Fin cfg0.N) (r : Fin 256) : Fin 8192 := ⟨t.val * 256 + r.val, by have := t_lt t; omega⟩

/-! ## The blocks the body sees, read off the argument arrays -/

theorem blk0 (c : Dev nD) (t : Fin cfg0.N) (r : Fin 256) (j : Fin 2048) :
    iblk m c 0 t (ix2 r j) = m ((c : Thread nD τ).loc main_arg0) (ix2 (grow t r) j) := by
  show V m c main_arg0 (((cfg0.win 0).blk t).view.emb (ix2 r j)) = _
  rw [V_main_arg0]
  refine congrArg _ (funext fun a => Fin.ext ?_)
  obtain ⟨e0, e1, -⟩ := idx_batch t
  match a with
  | ⟨0, _⟩ => show win0_0.index t (0 : Fin 2) * 256 + 1 * r.val = t.val * 256 + r.val; omega
  | ⟨1, _⟩ => show win0_0.index t (1 : Fin 2) * 2048 + 1 * j.val = j.val; omega

theorem blk1 (c : Dev nD) (t : Fin cfg0.N) (r : Fin 256) (k : Fin 512) :
    iblk m c 1 t (ix2 r k) = m ((c : Thread nD τ).loc main_arg1) (ix2 (grow t r) k) := by
  show V m c main_arg1 (((cfg0.win 1).blk t).view.emb (ix2 r k)) = _
  rw [V_main_arg1]
  refine congrArg _ (funext fun a => Fin.ext ?_)
  obtain ⟨-, -, e0, e1, -⟩ := idx_batch t
  match a with
  | ⟨0, _⟩ => show win0_1.index t (0 : Fin 2) * 256 + 1 * r.val = t.val * 256 + r.val; omega
  | ⟨1, _⟩ => show win0_1.index t (1 : Fin 2) * 512 + 1 * k.val = k.val; omega

theorem blk2 (c : Dev nD) (t : Fin cfg0.N) (r : Fin 256) (j : Fin 2048) :
    iblk m c 2 t (ix2 r j) = m ((c : Thread nD τ).loc main_arg2) (ix2 (grow t r) j) := by
  show V m c main_arg2 (((cfg0.win 2).blk t).view.emb (ix2 r j)) = _
  rw [V_main_arg2]
  refine congrArg _ (funext fun a => Fin.ext ?_)
  obtain ⟨-, -, -, -, e0, e1, -⟩ := idx_batch t
  match a with
  | ⟨0, _⟩ => show win0_2.index t (0 : Fin 2) * 256 + 1 * r.val = t.val * 256 + r.val; omega
  | ⟨1, _⟩ => show win0_2.index t (1 : Fin 2) * 2048 + 1 * j.val = j.val; omega

theorem blk3 (c : Dev nD) (t : Fin cfg0.N) (r : Fin 256) (j : Fin 2048) :
    iblk m c 3 t (ix2 r j) = m ((c : Thread nD τ).loc main_arg3) (ix2 (grow t r) j) := by
  show V m c main_arg3 (((cfg0.win 3).blk t).view.emb (ix2 r j)) = _
  rw [V_main_arg3]
  refine congrArg _ (funext fun a => Fin.ext ?_)
  obtain ⟨-, -, -, -, -, -, e0, e1, -⟩ := idx_batch t
  match a with
  | ⟨0, _⟩ => show win0_3.index t (0 : Fin 2) * 256 + 1 * r.val = t.val * 256 + r.val; omega
  | ⟨1, _⟩ => show win0_3.index t (1 : Fin 2) * 2048 + 1 * j.val = j.val; omega

theorem blk4 (c : Dev nD) (t : Fin cfg0.N) (z : Fin 1) (q : Fin 2048) :
    iblk m c 4 t (ix2 z q) = m ((c : Thread nD τ).loc main_arg5) (ix1 q) := by
  show V m c main_v9 (((cfg0.win 4).blk t).view.emb (ix2 z q)) = _
  rw [V_v9]
  obtain ⟨e0, e1, -⟩ := idx_const t
  have he : ((cfg0.win 4).blk t).view.emb (ix2 z q) = ix2 z q := funext fun a => Fin.ext (by
    match a with
    | ⟨0, _⟩ => show win0_4.index t (0 : Fin 2) * 1 + 1 * z.val = z.val; omega
    | ⟨1, _⟩ => show win0_4.index t (1 : Fin 2) * 2048 + 1 * q.val = q.val; omega)
  rw [he]
  exact shapeCast_flat_apply _ shapeCasts_S2048_S1x2048 z q

theorem blk5 (c : Dev nD) (t : Fin cfg0.N) (q : Fin 2048) (k : Fin 512) :
    iblk m c 5 t (ix2 q k) = m ((c : Thread nD τ).loc main_arg4) (ix2 q k) := by
  show V m c main_v0 (((cfg0.win 5).blk t).view.emb (ix2 q k)) = _
  rw [V_v0]
  refine congrArg _ (funext fun a => Fin.ext ?_)
  obtain ⟨-, -, e0, e1, -⟩ := idx_const t
  match a with
  | ⟨0, _⟩ => show win0_5.index t (0 : Fin 2) * 2048 + 1 * q.val = q.val; omega
  | ⟨1, _⟩ => show win0_5.index t (1 : Fin 2) * 512 + 1 * k.val = k.val; omega

theorem blk6 (c : Dev nD) (t : Fin cfg0.N) (a : Fin 768) (j : Fin 2048) :
    iblk m c 6 t (ix2 a j)
      = concatenate S768x2048 0 [⟨S512x2048, m ((c : Thread nD τ).loc main_arg6)⟩, ⟨S256x2048, m ((c : Thread nD τ).loc main_arg9)⟩]
          concatenates_S512x2048_S256x2048_S768x2048_d0 (ix2 a j) := by
  show V m c main_v2 (((cfg0.win 6).blk t).view.emb (ix2 a j)) = _
  rw [V_v2]
  refine congrArg _ (funext fun ax => Fin.ext ?_)
  obtain ⟨-, -, -, -, e0, e1, -⟩ := idx_const t
  match ax with
  | ⟨0, _⟩ => show win0_6.index t (0 : Fin 2) * 768 + 1 * a.val = a.val; omega
  | ⟨1, _⟩ => show win0_6.index t (1 : Fin 2) * 2048 + 1 * j.val = j.val; omega

theorem blk7 (c : Dev nD) (t : Fin cfg0.N) (a : Fin 768) (j : Fin 2048) :
    iblk m c 7 t (ix2 a j)
      = concatenate S768x2048 0 [⟨S512x2048, m ((c : Thread nD τ).loc main_arg7)⟩, ⟨S256x2048, m ((c : Thread nD τ).loc main_arg8)⟩]
          concatenates_S512x2048_S256x2048_S768x2048_d0 (ix2 a j) := by
  show V m c main_v4 (((cfg0.win 7).blk t).view.emb (ix2 a j)) = _
  rw [V_v4]
  refine congrArg _ (funext fun ax => Fin.ext ?_)
  obtain ⟨-, -, -, -, -, -, e0, e1, -⟩ := idx_const t
  match ax with
  | ⟨0, _⟩ => show win0_7.index t (0 : Fin 2) * 768 + 1 * a.val = a.val; omega
  | ⟨1, _⟩ => show win0_7.index t (1 : Fin 2) * 2048 + 1 * j.val = j.val; omega

theorem blk8 (c : Dev nD) (t : Fin cfg0.N) (s : Fin 256) (u : Fin 256) :
    iblk m c 8 t (ix2 s u) = m ((c : Thread nD τ).loc main_arg10) (ix2 s u) := by
  show V m c main_v5 (((cfg0.win 8).blk t).view.emb (ix2 s u)) = _
  rw [V_v5]
  refine congrArg _ (funext fun a => Fin.ext ?_)
  obtain ⟨-, -, -, -, -, -, -, -, e0, e1, -⟩ := idx_const t
  match a with
  | ⟨0, _⟩ => show win0_8.index t (0 : Fin 2) * 256 + 1 * s.val = s.val; omega
  | ⟨1, _⟩ => show win0_8.index t (1 : Fin 2) * 256 + 1 * u.val = u.val; omega

theorem blk9 (c : Dev nD) (t : Fin cfg0.N) (q : Fin 2048) (a : Fin 512) :
    iblk m c 9 t (ix2 q a) = m ((c : Thread nD τ).loc main_arg11) (ix2 q a) := by
  show V m c main_v6 (((cfg0.win 9).blk t).view.emb (ix2 q a)) = _
  rw [V_v6]
  refine congrArg _ (funext fun ax => Fin.ext ?_)
  obtain ⟨-, -, -, -, -, -, -, -, -, -, e0, e1, -⟩ := idx_const t
  match ax with
  | ⟨0, _⟩ => show win0_9.index t (0 : Fin 2) * 2048 + 1 * q.val = q.val; omega
  | ⟨1, _⟩ => show win0_9.index t (1 : Fin 2) * 512 + 1 * a.val = a.val; omega

theorem blk10 (c : Dev nD) (t : Fin cfg0.N) (q : Fin 2048) (j : Fin 768) :
    iblk m c 10 t (ix2 q j)
      = concatenate S2048x768 1 [⟨S2048x512, m ((c : Thread nD τ).loc main_arg12)⟩, ⟨S2048x256, m ((c : Thread nD τ).loc main_arg13)⟩]
          concatenates_S2048x512_S2048x256_S2048x768_d1 (ix2 q j) := by
  show V m c main_v8 (((cfg0.win 10).blk t).view.emb (ix2 q j)) = _
  rw [V_v8]
  refine congrArg _ (funext fun ax => Fin.ext ?_)
  obtain ⟨-, -, -, -, -, -, -, -, -, -, -, -, e0, e1⟩ := idx_const t
  match ax with
  | ⟨0, _⟩ => show win0_10.index t (0 : Fin 2) * 2048 + 1 * q.val = q.val; omega
  | ⟨1, _⟩ => show win0_10.index t (1 : Fin 2) * 768 + 1 * j.val = j.val; omega

/-! ## The stacked and the side-by-side weight matrices at an index -/

theorem catR_lo (x1 : S512x2048.Idx → EReal) (x2 : S256x2048.Idx → EReal) (a : Fin 512) (j : Fin 2048) :
    concatenate S768x2048 0 [⟨S512x2048, x1⟩, ⟨S256x2048, x2⟩] concatenates_S512x2048_S256x2048_S768x2048_d0
      (ix2 ⟨a.val, by omega⟩ j) = x1 (ix2 a j) :=
  concatenate_pair_apply_left 0 x1 x2 concatenates_S512x2048_S256x2048_S768x2048_d0 (ix2 ⟨a.val, by omega⟩ j) rfl (ix2 a j)
    fun b => by
      match b with
      | ⟨0, _⟩ => rfl
      | ⟨1, _⟩ => rfl

theorem catR_hi (x1 : S512x2048.Idx → EReal) (x2 : S256x2048.Idx → EReal) (s : Fin 256) (j : Fin 2048) :
    concatenate S768x2048 0 [⟨S512x2048, x1⟩, ⟨S256x2048, x2⟩] concatenates_S512x2048_S256x2048_S768x2048_d0
      (ix2 ⟨512 + s.val, by omega⟩ j) = x2 (ix2 s j) :=
  concatenate_pair_apply_right 0 x1 x2 concatenates_S512x2048_S256x2048_S768x2048_d0 (ix2 ⟨512 + s.val, by omega⟩ j) rfl rfl
    (ix2 s j)
    (fun b => by
      match b with
      | ⟨0, _⟩ => exact fun h => absurd rfl h
      | ⟨1, _⟩ => exact fun _ => rfl)
    (by show s.val + 512 = 512 + s.val; omega)

theorem catC_lo (x1 : S2048x512.Idx → EReal) (x2 : S2048x256.Idx → EReal) (q : Fin 2048) (a : Fin 512) :
    concatenate S2048x768 1 [⟨S2048x512, x1⟩, ⟨S2048x256, x2⟩] concatenates_S2048x512_S2048x256_S2048x768_d1
      (ix2 q ⟨a.val, by omega⟩) = x1 (ix2 q a) :=
  concatenate_pair_apply_left 1 x1 x2 concatenates_S2048x512_S2048x256_S2048x768_d1 (ix2 q ⟨a.val, by omega⟩) rfl (ix2 q a)
    fun b => by
      match b with
      | ⟨0, _⟩ => rfl
      | ⟨1, _⟩ => rfl

theorem catC_hi (x1 : S2048x512.Idx → EReal) (x2 : S2048x256.Idx → EReal) (q : Fin 2048) (s : Fin 256) :
    concatenate S2048x768 1 [⟨S2048x512, x1⟩, ⟨S2048x256, x2⟩] concatenates_S2048x512_S2048x256_S2048x768_d1
      (ix2 q ⟨512 + s.val, by omega⟩) = x2 (ix2 q s) :=
  concatenate_pair_apply_right 1 x1 x2 concatenates_S2048x512_S2048x256_S2048x768_d1 (ix2 q ⟨512 + s.val, by omega⟩) rfl rfl
    (ix2 q s)
    (fun b => by
      match b with
      | ⟨0, _⟩ => exact fun _ => rfl
      | ⟨1, _⟩ => exact fun h => absurd rfl h)
    (by show s.val + 512 = 512 + s.val; omega)

/-! ## Rows of the batch blocks and the weights, as the circuit's functions take them -/

theorem row_blk0 (c : Dev nD) (t : Fin cfg0.N) (r : Fin 256) :
    row (iblk m c 0 t : Vec Ideal S256x2048 .f32) r = row (m ((c : Thread nD τ).loc main_arg0)) (grow t r) := funext fun j => blk0 m c t r j

theorem row_blk1 (c : Dev nD) (t : Fin cfg0.N) (r : Fin 256) :
    row (iblk m c 1 t : Vec Ideal S256x512 .f32) r = row (m ((c : Thread nD τ).loc main_arg1)) (grow t r) := funext fun k => blk1 m c t r k

theorem row_blk4 (c : Dev nD) (t : Fin cfg0.N) :
    row (iblk m c 4 t : Vec Ideal S1x2048 .f32) 0 = vec (m ((c : Thread nD τ).loc main_arg5)) := funext fun q => blk4 m c t 0 q

theorem mat_blk5 (c : Dev nD) (t : Fin cfg0.N) :
    mat (iblk m c 5 t : Vec Ideal S2048x512 .bf16) = mat (m ((c : Thread nD τ).loc main_arg4)) := funext fun q => funext fun k => blk5 m c t q k

theorem top_blk6 (c : Dev nD) (t : Fin cfg0.N) :
    topRows (mat (iblk m c 6 t : Vec Ideal S768x2048 .bf16)) = mat (m ((c : Thread nD τ).loc main_arg6)) :=
  funext fun a => funext fun j => (blk6 m c t ⟨a.val, by omega⟩ j).trans (catR_lo _ _ a j)

theorem bot_blk6 (c : Dev nD) (t : Fin cfg0.N) :
    botRows (mat (iblk m c 6 t : Vec Ideal S768x2048 .bf16)) = mat (m ((c : Thread nD τ).loc main_arg9)) :=
  funext fun s => funext fun j => (blk6 m c t ⟨512 + s.val, by omega⟩ j).trans (catR_hi _ _ s j)

theorem top_blk7 (c : Dev nD) (t : Fin cfg0.N) :
    topRows (mat (iblk m c 7 t : Vec Ideal S768x2048 .bf16)) = mat (m ((c : Thread nD τ).loc main_arg7)) :=
  funext fun a => funext fun j => (blk7 m c t ⟨a.val, by omega⟩ j).trans (catR_lo _ _ a j)

theorem bot_blk7 (c : Dev nD) (t : Fin cfg0.N) :
    botRows (mat (iblk m c 7 t : Vec Ideal S768x2048 .bf16)) = mat (m ((c : Thread nD τ).loc main_arg8)) :=
  funext fun s => funext fun j => (blk7 m c t ⟨512 + s.val, by omega⟩ j).trans (catR_hi _ _ s j)

theorem mat_blk8 (c : Dev nD) (t : Fin cfg0.N) :
    mat (iblk m c 8 t : Vec Ideal S256x256 .bf16) = mat (m ((c : Thread nD τ).loc main_arg10)) := funext fun s => funext fun u => blk8 m c t s u

theorem mat_blk9 (c : Dev nD) (t : Fin cfg0.N) :
    mat (iblk m c 9 t : Vec Ideal S2048x512 .bf16) = mat (m ((c : Thread nD τ).loc main_arg11)) := funext fun q => funext fun a => blk9 m c t q a

theorem left_blk10 (c : Dev nD) (t : Fin cfg0.N) :
    leftCols (mat (iblk m c 10 t : Vec Ideal S2048x768 .bf16)) = mat (m ((c : Thread nD τ).loc main_arg12)) :=
  funext fun q => funext fun a => (blk10 m c t q ⟨a.val, by omega⟩).trans (catC_lo _ _ q a)

theorem right_blk10 (c : Dev nD) (t : Fin cfg0.N) :
    rightCols (mat (iblk m c 10 t : Vec Ideal S2048x768 .bf16)) = mat (m ((c : Thread nD τ).loc main_arg13)) :=
  funext fun q => funext fun s => (blk10 m c t q ⟨512 + s.val, by omega⟩).trans (catC_hi _ _ q s)

/-! ## What each grid point writes back, and the two result arrays -/

/-- The first result array as the kernel leaves it. -/
def posArr (c : Dev nD) : S8192x2048.Idx → EReal :=
  outPos (Ideal.ofBits .f32 0x3F666666#32) (Ideal.ofBits .f32 0x3DCCCCCD#32) (m ((c : Thread nD τ).loc main_arg0)) (m ((c : Thread nD τ).loc main_arg1)) (m ((c : Thread nD τ).loc main_arg2)) (m ((c : Thread nD τ).loc main_arg4)) (m ((c : Thread nD τ).loc main_arg5))
    (m ((c : Thread nD τ).loc main_arg7)) (m ((c : Thread nD τ).loc main_arg11))

/-- The second result array as the kernel leaves it: the two inhibitions subtracted as one sum. -/
def negArr (c : Dev nD) : S8192x2048.Idx → EReal :=
  outNegFused (Ideal.ofBits .f32 0x3F666666#32) (Ideal.ofBits .f32 0x3DCCCCCD#32) (m ((c : Thread nD τ).loc main_arg0)) (m ((c : Thread nD τ).loc main_arg1)) (m ((c : Thread nD τ).loc main_arg3)) (m ((c : Thread nD τ).loc main_arg4)) (m ((c : Thread nD τ).loc main_arg5))
    (m ((c : Thread nD τ).loc main_arg6)) (m ((c : Thread nD τ).loc main_arg8)) (m ((c : Thread nD τ).loc main_arg9)) (m ((c : Thread nD τ).loc main_arg10)) (m ((c : Thread nD τ).loc main_arg12)) (m ((c : Thread nD τ).loc main_arg13))

theorem hz : (![0, 0] : Fin 2 → Nat) = fun _ => 0 := funext fun a => by fin_cases a <;> rfl

theorem emb11 (t : Fin cfg0.N) (r : Fin 256) (q : Fin 2048) :
    ((cfg0.win 11).blk t).view.emb (ix2 r q) = ix2 (grow t r) q := funext fun a => Fin.ext (by
  obtain ⟨-, -, -, -, -, -, -, -, e0, e1, -⟩ := idx_batch t
  match a with
  | ⟨0, _⟩ => show win0_11.index t (0 : Fin 2) * 256 + 1 * r.val = t.val * 256 + r.val; omega
  | ⟨1, _⟩ => show win0_11.index t (1 : Fin 2) * 2048 + 1 * q.val = q.val; omega)

theorem emb12 (t : Fin cfg0.N) (r : Fin 256) (q : Fin 2048) :
    ((cfg0.win 12).blk t).view.emb (ix2 r q) = ix2 (grow t r) q := funext fun a => Fin.ext (by
  obtain ⟨-, -, -, -, -, -, -, -, -, -, e0, e1⟩ := idx_batch t
  match a with
  | ⟨0, _⟩ => show win0_12.index t (0 : Fin 2) * 256 + 1 * r.val = t.val * 256 + r.val; omega
  | ⟨1, _⟩ => show win0_12.index t (1 : Fin 2) * 2048 + 1 * q.val = q.val; omega)

/-- Point t writes back block t of the first result. -/
theorem flushed11_eq (c : Dev nD) (t : Fin cfg0.N) :
    (dats m 0 c).flushed 11 t = ((cfg0.win 11).blk t).view.read (Elt Ideal) (posArr m c) := by
  rw [Value.flushed11]
  unfold out0_11
  rw [View.canon_unit_zero hz]
  simp only [View.ld_unit_zero (S := S256x2048) hz, View.ld_unit_zero (S := S256x512) hz,
    View.ld_unit_zero (S := S1x2048) hz, View.ld_unit_zero (S := S2048x512) hz, View.ld_unit_zero (S := S768x2048) hz]
  funext y
  obtain ⟨r, q, rfl⟩ : ∃ (r : Fin 256) (q : Fin 2048), y = ix2 r q := ⟨y 0, y 1, eq_ix2 y⟩
  show k0_pay1 (F := Ideal) (k0_pay9 (F := Ideal) (iblk m c 0 t) (iblk m c 1 t) (iblk m c 4 t) (iblk m c 5 t) (iblk m c 7 t)
      (iblk m c 9 t)) (iblk m c 2 t) (Scalar.ofBits (F := Ideal) .f32 0x3F666666#32) (ix2 r q)
    = posArr m c (((cfg0.win 11).blk t).view.emb (ix2 r q))
  refine (out_pos_row (iblk m c 0 t) (iblk m c 1 t) (iblk m c 2 t) (iblk m c 4 t) (iblk m c 5 t) (iblk m c 7 t)
    (iblk m c 9 t) r q).trans ?_
  rw [emb11, blk2, row_blk0, row_blk1, row_blk4, mat_blk5, top_blk7, mat_blk9]
  rfl

/-- Point t writes back block t of the second result. -/
theorem flushed12_eq (c : Dev nD) (t : Fin cfg0.N) :
    (dats m 0 c).flushed 12 t = ((cfg0.win 12).blk t).view.read (Elt Ideal) (negArr m c) := by
  rw [Value.flushed12]
  unfold out0_12
  rw [View.canon_unit_zero hz]
  simp only [View.ld_unit_zero (S := S256x2048) hz, View.ld_unit_zero (S := S256x512) hz,
    View.ld_unit_zero (S := S1x2048) hz, View.ld_unit_zero (S := S2048x512) hz, View.ld_unit_zero (S := S768x2048) hz,
    View.ld_unit_zero (S := S256x256) hz, View.ld_unit_zero (S := S2048x768) hz]
  funext y
  obtain ⟨r, q, rfl⟩ : ∃ (r : Fin 256) (q : Fin 2048), y = ix2 r q := ⟨y 0, y 1, eq_ix2 y⟩
  show k0_pay2 (F := Ideal) (iblk m c 0 t) (k0_pay3 (F := Ideal) (iblk m c 1 t) (iblk m c 4 t) (iblk m c 5 t))
      (k0_pay5 (F := Ideal) (iblk m c 0 t) (iblk m c 6 t)) (k0_pay6 (F := Ideal) (iblk m c 0 t) (iblk m c 6 t))
      (k0_pay8 (F := Ideal) (iblk m c 1 t) (iblk m c 4 t) (iblk m c 5 t) (iblk m c 7 t)) (iblk m c 8 t) (iblk m c 10 t)
      (iblk m c 3 t) (ix2 r q)
    = negArr m c (((cfg0.win 12).blk t).view.emb (ix2 r q))
  refine (out_neg_row (iblk m c 0 t) (iblk m c 1 t) (iblk m c 3 t) (iblk m c 4 t) (iblk m c 5 t) (iblk m c 6 t)
    (iblk m c 7 t) (iblk m c 8 t) (iblk m c 10 t) r q).trans ?_
  rw [emb12, blk3, row_blk0, row_blk1, row_blk4, mat_blk5, top_blk6, bot_blk6, bot_blk7, mat_blk8, left_blk10, right_blk10]
  rfl

/-! ## The 32 blocks cover each result -/

theorem mem_blk11 (t : Fin cfg0.N) (i : S8192x2048.Idx) :
    i ∈ ((cfg0.win 11).blk t).view.set ↔ ∀ a : Fin 2, win0_11.index t a * S256x2048.size a ≤ (i a).val
      ∧ (i a).val < win0_11.index t a * S256x2048.size a + S256x2048.size a := by
  show i ∈ ((View.whole main_v10_0).slice (win0_11.rect t)).set ↔ _
  rw [View.set_slice_whole, Rect.mem_set_unit]
  exact Iff.rfl

theorem mem_blk12 (t : Fin cfg0.N) (i : S8192x2048.Idx) :
    i ∈ ((cfg0.win 12).blk t).view.set ↔ ∀ a : Fin 2, win0_12.index t a * S256x2048.size a ≤ (i a).val
      ∧ (i a).val < win0_12.index t a * S256x2048.size a + S256x2048.size a := by
  show i ∈ ((View.whole main_v10_1).slice (win0_12.rect t)).set ↔ _
  rw [View.set_slice_whole, Rect.mem_set_unit]
  exact Iff.rfl

/-- Batch row p lies in the block of point p / 256. -/
theorem cover11 (i : S8192x2048.Idx) :
    ∃ t : Fin cfg0.N, (cfg0.win 11).flush t = true ∧ i ∈ ((cfg0.win 11).blk t).view.set := by
  have h0 : (i 0).val < 8192 := (i 0).isLt
  have h1 : (i 1).val < 2048 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, e0, e1, -⟩ := idx_batch t
  refine ⟨t, flush0_11 t, ?_⟩
  rw [mem_blk11]
  intro a
  match a with
  | ⟨0, _⟩ =>
    show win0_11.index t (0 : Fin 2) * 256 ≤ (i 0).val ∧ (i 0).val < win0_11.index t (0 : Fin 2) * 256 + 256
    omega
  | ⟨1, _⟩ =>
    show win0_11.index t (1 : Fin 2) * 2048 ≤ (i 1).val ∧ (i 1).val < win0_11.index t (1 : Fin 2) * 2048 + 2048
    omega

theorem cover12 (i : S8192x2048.Idx) :
    ∃ t : Fin cfg0.N, (cfg0.win 12).flush t = true ∧ i ∈ ((cfg0.win 12).blk t).view.set := by
  have h0 : (i 0).val < 8192 := (i 0).isLt
  have h1 : (i 1).val < 2048 := (i 1).isLt
  obtain ⟨t, ht⟩ : ∃ t : Fin cfg0.N, t.val = (i 0).val / 256 :=
    ⟨⟨(i 0).val / 256, by rw [show cfg0.N = 32 from N_0]; omega⟩, rfl⟩
  obtain ⟨-, -, -, -, -, -, -, -, -, -, e0, e1⟩ := idx_batch t
  refine ⟨t, flush0_12 t, ?_⟩
  rw [mem_blk12]
  intro a
  match a with
  | ⟨0, _⟩ =>
    show win0_12.index t (0 : Fin 2) * 256 ≤ (i 0).val ∧ (i 0).val < win0_12.index t (0 : Fin 2) * 256 + 256
    omega
  | ⟨1, _⟩ =>
    show win0_12.index t (1 : Fin 2) * 2048 ≤ (i 1).val ∧ (i 1).val < win0_12.index t (1 : Fin 2) * 2048 + 2048
    omega

/-- After the run the first result array is the filtered positive prediction error of the arguments. -/
theorem final11 (c : Dev nD) : (dats m 0 c).arrAt 11 cfg0.N = posArr m c :=
  (dats m 0 c).arrAt_eq_of_cover 11 (posArr m c) (fun t _ => flushed11_eq m c t) cover11

/-- After the run the second result array is the filtered negative prediction error, in the fused arrangement. -/
theorem final12 (c : Dev nD) : (dats m 0 c).arrAt 12 cfg0.N = negArr m c :=
  (dats m 0 c).arrAt_eq_of_cover 12 (negArr m c) (fun t _ => flushed12_eq m c t) cover12

end Cert.KernelIdeal.Whole

end
-- ==== Proof.ReferenceRows.lean ====
/-
  The reference's two results as functions of the argument arrays.

  The reference computes, with whole-batch matrix products against the transposed weights, the prediction, the four
  rectified populations, the SOM population, the two prediction errors — the negative one with its two inhibitions
  subtracted one after the other — and the two filtered states. Read one batch row at a time these are the circuit's
  functions of that row.
-/
import proofs.«134026_j29145648071275_2_alg».proof.Proof.Gen.ReferenceIdeal.Read
import proofs.«134026_j29145648071275_2_alg».proof.Proof.Arrays
import Idealize.ShloMosaic.Lib.ValueIdx
import Idealize.ShloMosaic.PureOps.Ideal.Laws

noncomputable section

namespace Cert.ReferenceIdeal.Rows

open scoped BigOperators
open Cert.ReferenceIdeal Cert.ReferenceIdeal.Read Idealize.ShloMosaic Idealize.ShloMosaic.ValueIdx Circuit

/-- A rank-2 index with the coordinates a and b is ix2 a b. -/
theorem idx_eq {n0 n1 : ℕ} (f : (⟨2, ![n0, n1]⟩ : Shape).Idx) (a : Fin n0) (b : Fin n1)
    (h0 : (f 0).val = a.val) (h1 : (f 1).val = b.val) : f = ix2 a b :=
  funext fun ax => Fin.ext (by
    match ax with
    | ⟨0, _⟩ => exact h0
    | ⟨1, _⟩ => exact h1)

/-- The rectifier against the zero word. -/
theorem relu_zero (z : EReal) :
    FloatOps.maximumf (F := Ideal) (φ := .f32) z (FloatOps.ofBits (F := Ideal) .f32 0x00000000#32) = max z 0 := by
  show max z (Ideal.ofBits .f32 0x00000000#32) = _
  rw [Ideal.ofBits_zero_f32]

variable (x0 : (⟨S8192x2048, .f32⟩ : BufTy).Contents (Elt Ideal)) (x1 : (⟨S8192x512, .f32⟩ : BufTy).Contents (Elt Ideal))
  (x2 x3 : (⟨S8192x2048, .f32⟩ : BufTy).Contents (Elt Ideal))
  (x4 : (⟨S2048x512, .f32⟩ : BufTy).Contents (Elt Ideal)) (x5 : (⟨S2048, .f32⟩ : BufTy).Contents (Elt Ideal))
  (x6 x7 : (⟨S512x2048, .f32⟩ : BufTy).Contents (Elt Ideal)) (x8 x9 : (⟨S256x2048, .f32⟩ : BufTy).Contents (Elt Ideal))
  (x10 : (⟨S256x256, .f32⟩ : BufTy).Contents (Elt Ideal)) (x11 x12 : (⟨S2048x512, .f32⟩ : BufTy).Contents (Elt Ideal))
  (x13 : (⟨S2048x256, .f32⟩ : BufTy).Contents (Elt Ideal))

/-- The prediction of sample p. -/
theorem ref_pred (p : Fin 8192) (q : Fin 2048) :
    val_main_v4 (F := Ideal) x1 x4 x5 (ix2 p q) = predRow x1 x4 x5 p q := by
  rw [val_main_v4_apply, val_main_v1_apply, val_main_v3_apply, val_main_v2_apply]
  show (∑ k : Fin 512, x1 (lidx_main_v1 (ix2 p q) k) * val_main_v0 (F := Ideal) x4 (ridx_main_v1 (ix2 p q) k))
      + x5 (idx_main_v2 (idx_main_v3 (ix2 p q))) = (∑ k : Fin 512, x1 (ix2 p k) * x4 (ix2 q k)) + x5 (ix1 q)
  refine congrArg₂ (· + ·) (Finset.sum_congr rfl fun k _ => ?_)
    (congrArg x5 (funext fun a => Fin.ext (by match a with | ⟨0, _⟩ => rfl)))
  rw [val_main_v0_apply]
  exact congrArg₂ (· * ·) (congrArg x1 (idx_eq _ p k rfl rfl)) (congrArg x4 (idx_eq _ q k rfl rfl))

/-- The PV population driven by the input. -/
theorem ref_pv1 (p : Fin 8192) (a : Fin 512) :
    val_main_v7 (F := Ideal) x0 x6 (ix2 p a) = layer (row x0 p) (mat x6) a := by
  rw [val_main_v7_apply, val_main_call0_v0_apply, val_main_call0_cst_apply, relu_zero, val_main_v6_apply]
  refine congrArg (fun z => max z 0) (Finset.sum_congr rfl fun k _ => ?_)
  rw [val_main_v5_apply]
  exact congrArg₂ (· * ·) (congrArg x0 (idx_eq _ p k rfl rfl)) (congrArg x6 (idx_eq _ a k rfl rfl))

/-- The PV population driven by the prediction. -/
theorem ref_pv2 (p : Fin 8192) (a : Fin 512) :
    val_main_v10 (F := Ideal) x1 x4 x5 x7 (ix2 p a) = layer (predRow x1 x4 x5 p) (mat x7) a := by
  rw [val_main_v10_apply, val_main_call1_v0_apply, val_main_call1_cst_apply, relu_zero, val_main_v9_apply]
  refine congrArg (fun z => max z 0) (Finset.sum_congr rfl fun k _ => ?_)
  rw [val_main_v8_apply, show lidx_main_v9 (ix2 p a) k = ix2 p k from idx_eq _ p k rfl rfl, ref_pred]
  exact congrArg (predRow x1 x4 x5 p k * ·) (congrArg x7 (idx_eq _ a k rfl rfl))

/-- The VIP population. -/
theorem ref_vip (p : Fin 8192) (s : Fin 256) :
    val_main_v13 (F := Ideal) x1 x4 x5 x8 (ix2 p s) = layer (predRow x1 x4 x5 p) (mat x8) s := by
  rw [val_main_v13_apply, val_main_call2_v0_apply, val_main_call2_cst_apply, relu_zero, val_main_v12_apply]
  refine congrArg (fun z => max z 0) (Finset.sum_congr rfl fun k _ => ?_)
  rw [val_main_v11_apply, show lidx_main_v12 (ix2 p s) k = ix2 p k from idx_eq _ p k rfl rfl, ref_pred]
  exact congrArg (predRow x1 x4 x5 p k * ·) (congrArg x8 (idx_eq _ s k rfl rfl))

/-- The SOM population's feed-forward drive. -/
theorem ref_sompre (p : Fin 8192) (s : Fin 256) :
    val_main_v16 (F := Ideal) x0 x9 (ix2 p s) = layer (row x0 p) (mat x9) s := by
  rw [val_main_v16_apply, val_main_call3_v0_apply, val_main_call3_cst_apply, relu_zero, val_main_v15_apply]
  refine congrArg (fun z => max z 0) (Finset.sum_congr rfl fun k _ => ?_)
  rw [val_main_v14_apply]
  exact congrArg₂ (· * ·) (congrArg x0 (idx_eq _ p k rfl rfl)) (congrArg x9 (idx_eq _ s k rfl rfl))

/-- The SOM population. -/
theorem ref_som (p : Fin 8192) (s : Fin 256) :
    val_main_v20 (F := Ideal) x0 x1 x4 x5 x8 x9 x10 (ix2 p s)
      = som (row x0 p) (predRow x1 x4 x5 p) (mat x9) (mat x8) (mat x10) s := by
  rw [val_main_v20_apply, val_main_call4_v0_apply, val_main_call4_cst_apply, relu_zero, val_main_v19_apply,
    val_main_v18_apply, ref_sompre]
  refine congrArg (fun z => max (layer (row x0 p) (mat x9) s - z) 0) (Finset.sum_congr rfl fun u _ => ?_)
  rw [val_main_v17_apply, show lidx_main_v18 (ix2 p s) u = ix2 p u from idx_eq _ p u rfl rfl, ref_vip]
  exact congrArg (layer (predRow x1 x4 x5 p) (mat x8) u * ·) (congrArg x10 (idx_eq _ s u rfl rfl))

/-- The positive prediction error. -/
theorem ref_pepos (p : Fin 8192) (q : Fin 2048) :
    val_main_v25 (F := Ideal) x0 x1 x4 x5 x7 x11 (ix2 p q)
      = pePos (row x0 p) (predRow x1 x4 x5 p) (mat x7) (mat x11) q := by
  rw [val_main_v25_apply, val_main_call5_v0_apply, val_main_call5_cst_apply, relu_zero, val_main_v24_apply,
    val_main_v21_apply, val_main_v23_apply, ref_pred]
  refine congrArg (fun z => max (x0 (ix2 p q) - predRow x1 x4 x5 p q - z) 0) (Finset.sum_congr rfl fun a _ => ?_)
  rw [val_main_v22_apply, show lidx_main_v23 (ix2 p q) a = ix2 p a from idx_eq _ p a rfl rfl, ref_pv2]
  exact congrArg (layer (predRow x1 x4 x5 p) (mat x7) a * ·) (congrArg x11 (idx_eq _ q a rfl rfl))

/-- The negative prediction error, its two inhibitions subtracted one after the other. -/
theorem ref_peneg (p : Fin 8192) (q : Fin 2048) :
    val_main_v33 (F := Ideal) x0 x1 x4 x5 x6 x8 x9 x10 x12 x13 (ix2 p q)
      = peNeg (row x0 p) (predRow x1 x4 x5 p) (mat x6) (mat x12)
          (som (row x0 p) (predRow x1 x4 x5 p) (mat x9) (mat x8) (mat x10)) (mat x13) q := by
  rw [val_main_v33_apply, val_main_call6_v0_apply, val_main_call6_cst_apply, relu_zero, val_main_v32_apply,
    val_main_v29_apply, val_main_v26_apply, val_main_v28_apply, val_main_v31_apply, ref_pred]
  refine congrArg₂ (fun y z => max (predRow x1 x4 x5 p q - x0 (ix2 p q) - y - z) 0)
    (Finset.sum_congr rfl fun a _ => ?_) (Finset.sum_congr rfl fun s _ => ?_)
  · rw [val_main_v27_apply, show lidx_main_v28 (ix2 p q) a = ix2 p a from idx_eq _ p a rfl rfl, ref_pv1]
    exact congrArg (layer (row x0 p) (mat x6) a * ·) (congrArg x12 (idx_eq _ q a rfl rfl))
  · rw [val_main_v30_apply, show lidx_main_v31 (ix2 p q) s = ix2 p s from idx_eq _ p s rfl rfl, ref_som]
    exact congrArg (som (row x0 p) (predRow x1 x4 x5 p) (mat x9) (mat x8) (mat x10) s * ·)
      (congrArg x13 (idx_eq _ q s rfl rfl))

/-- The first result is the filtered positive prediction error. -/
theorem ref_out_pos :
    val_main_v38 (F := Ideal) x0 x1 x2 x4 x5 x7 x11
      = outPos (Ideal.ofBits .f32 0x3F666666#32) (Ideal.ofBits .f32 0x3DCCCCCD#32) x0 x1 x2 x4 x5 x7 x11 := by
  funext i
  obtain ⟨p, q, rfl⟩ : ∃ (p : Fin 8192) (q : Fin 2048), i = ix2 p q := ⟨i 0, i 1, eq_ix2 i⟩
  rw [val_main_v38_apply, val_main_v35_apply, val_main_v37_apply, val_main_v34_apply, val_main_v36_apply,
    val_main_cst_apply, val_main_cst_0_apply, ref_pepos]
  rfl

/-- The second result is the filtered negative prediction error. -/
theorem ref_out_neg :
    val_main_v43 (F := Ideal) x0 x1 x3 x4 x5 x6 x8 x9 x10 x12 x13
      = outNeg (Ideal.ofBits .f32 0x3F666666#32) (Ideal.ofBits .f32 0x3DCCCCCD#32) x0 x1 x3 x4 x5 x6 x8 x9 x10 x12 x13 := by
  funext i
  obtain ⟨p, q, rfl⟩ : ∃ (p : Fin 8192) (q : Fin 2048), i = ix2 p q := ⟨i 0, i 1, eq_ix2 i⟩
  rw [val_main_v43_apply, val_main_v40_apply, val_main_v42_apply, val_main_v39_apply, val_main_v41_apply,
    val_main_cst_1_apply, val_main_cst_2_apply, ref_peneg]
  rfl

end Cert.ReferenceIdeal.Rows

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.Finite.lean ====
/-
  The precondition read back: every entry of every argument is a real number.

  The printed test is a conjunction, nested to the left, of one "all |a| < +∞" test per argument, in the order of the
  arguments. A conjunction that is 1 has both parts 1, and an argument whose test is 1 has a real number at every entry.
-/
import proofs.«134026_j29145648071275_2_alg».proof.Pre_finite_inputs
import proofs.«134026_j29145648071275_2_alg».proof.Proof.LibFiniteEntries
import proofs.«134026_j29145648071275_2_alg».proof.Proof.LibRealEntries

noncomputable section

namespace Cert.Pre_finite_inputs.Reals

open Cert.Pre_finite_inputs Cert.Pre_finite_inputs.Facts Idealize.ShloMosaic Idealize.ShloMosaic.ValueIdx
open Idealize.ShloMosaic.FiniteEntries Idealize.ShloMosaic.RealEntries

variable [Cert.Pre_finite_inputs.Facts]

/-- Under the precondition the entries of the ten arguments the negative prediction error depends on are real. -/
theorem real_of_pre (a0 : FVec Ideal S8192x2048 .f32) (a1 : FVec Ideal S8192x512 .f32) (a2 a3 : FVec Ideal S8192x2048 .f32)
    (a4 : FVec Ideal S2048x512 .f32) (a5 : FVec Ideal S2048 .f32) (a6 a7 : FVec Ideal S512x2048 .f32)
    (a8 a9 : FVec Ideal S256x2048 .f32) (a10 : FVec Ideal S256x256 .f32) (a11 a12 : FVec Ideal S2048x512 .f32)
    (a13 : FVec Ideal S2048x256 .f32)
    (h : fn (F := Ideal) a0 a1 a2 a3 a4 a5 a6 a7 a8 a9 a10 a11 a12 a13 = fun _ => 1#1) :
    (∀ i, IsReal (a0 i)) ∧ (∀ i, IsReal (a1 i)) ∧ (∀ i, IsReal (a4 i)) ∧ (∀ i, IsReal (a5 i)) ∧ (∀ i, IsReal (a6 i))
      ∧ (∀ i, IsReal (a8 i)) ∧ (∀ i, IsReal (a9 i)) ∧ (∀ i, IsReal (a10 i)) ∧ (∀ i, IsReal (a12 i))
      ∧ (∀ i, IsReal (a13 i)) := by
  have h0 : fn (F := Ideal) a0 a1 a2 a3 a4 a5 a6 a7 a8 a9 a10 a11 a12 a13 ix0 = 1#1 := congrFun h ix0
  obtain ⟨h12, e13⟩ := and_split (show andi _ _ ix0 = 1#1 from h0)
  obtain ⟨h11, e12⟩ := and_split h12
  obtain ⟨h10, _⟩ := and_split h11
  obtain ⟨h9, e10⟩ := and_split h10
  obtain ⟨h8, e9⟩ := and_split h9
  obtain ⟨h7, e8⟩ := and_split h8
  obtain ⟨h6, _⟩ := and_split h7
  obtain ⟨h5, e6⟩ := and_split h6
  obtain ⟨h4, e5⟩ := and_split h5
  obtain ⟨h3, e4⟩ := and_split h4
  obtain ⟨h2, _⟩ := and_split h3
  obtain ⟨h1, _⟩ := and_split h2
  obtain ⟨e0, e1⟩ := and_split h1
  exact ⟨entries_real a0 _ _ _ e0, entries_real a1 _ _ _ e1, entries_real a4 _ _ _ e4, entries_real a5 _ _ _ e5,
    entries_real a6 _ _ _ e6, entries_real a8 _ _ _ e8, entries_real a9 _ _ _ e9, entries_real a10 _ _ _ e10,
    entries_real a12 _ _ _ e12, entries_real a13 _ _ _ e13⟩

end Cert.Pre_finite_inputs.Reals

end
-- ==== Proof.lean ====
/-
  The kernel and the reference compute the same two arrays.

  Both programs run a predictive-coding interneuron circuit on a batch of 8192 independent samples. For sample p with
  input row x, context row ctx, and the weight matrices, the circuit is
    pred q  = Σ_k ctx k · W_pred q k + b q,
    pv1 a   = max (Σ_j x j · W_pv1 a j) 0,          pv2 a = max (Σ_j pred j · W_pv2 a j) 0,
    vip s   = max (Σ_j pred j · W_vip s j) 0,
    som s   = max (max (Σ_j x j · W_som_in s j) 0 − Σ_u vip u · W_vip_som s u) 0,
    pe⁺ q   = max (x q − pred q − Σ_a pv2 a · W_inh⁺ q a) 0,
    pe⁻ q   = max (pred q − x q − Σ_a pv1 a · W_inh⁻ q a − Σ_s som s · W_dend q s) 0,
  and the results are 0.9·r⁺ + 0.1·pe⁺ and 0.9·r⁻ + 0.1·pe⁻ (the same two binary32 constants in both programs).

  The reference computes exactly this with whole-batch matrix products. The kernel cuts the batch into 32 blocks of
  256 rows, computes pv1 with the SOM drive, and pv2 with vip, as the first 512 and last 256 units of ONE stacked
  population each, and subtracts the two inhibitions of pe⁻ as ONE product over the concatenation [pv1 | som] against
  [W_inh⁻ | W_dend]: pred q − x q − (S₁ + S₂) instead of pred q − x q − S₁ − S₂. Changes of float format are the
  identity on the extended reals, a sum over a concatenation splits into the two sums with no condition, and the two
  subtractions agree because, the inputs being finite, every quantity of the circuit is a real number — this is where
  the precondition is used. Everything else is reading both programs at an index.
-/
import proofs.«134026_j29145648071275_2_alg».proof.Defs
import proofs.«134026_j29145648071275_2_alg».proof.Proof.Gen.Kernel
import proofs.«134026_j29145648071275_2_alg».proof.Proof.Gen.Kernel.Skeleton
import proofs.«134026_j29145648071275_2_alg».proof.Proof.Gen.Kernel.Launch
import proofs.«134026_j29145648071275_2_alg».proof.Proof.Gen.Kernel.Points
import proofs.«134026_j29145648071275_2_alg».proof.Proof.Gen.Kernel.Frame
import proofs.«134026_j29145648071275_2_alg».proof.Proof.Gen.KernelIdeal
import proofs.«134026_j29145648071275_2_alg».proof.Proof.Gen.KernelIdeal.Skeleton
import proofs.«134026_j29145648071275_2_alg».proof.Proof.Gen.KernelIdeal.Launch
import proofs.«134026_j29145648071275_2_alg».proof.Proof.Gen.KernelIdeal.Points
import proofs.«134026_j29145648071275_2_alg».proof.Proof.Gen.KernelIdeal.Frame
import proofs.«134026_j29145648071275_2_alg».proof.Proof.Gen.ReferenceIdeal
import proofs.«134026_j29145648071275_2_alg».proof.Proof.Gen.KernelIdeal.Value
import proofs.«134026_j29145648071275_2_alg».proof.Proof.Gen.ReferenceIdeal.Run
import proofs.«134026_j29145648071275_2_alg».proof.Proof.Gen.ReferenceIdeal.Read
import proofs.«134026_j29145648071275_2_alg».proof.Proof.Gen.Pre_finite_inputs
import proofs.«134026_j29145648071275_2_alg».proof.Proof.KernelValue
import proofs.«134026_j29145648071275_2_alg».proof.Proof.ReferenceRows
import proofs.«134026_j29145648071275_2_alg».proof.Proof.Finite
import Idealize.ShloMosaic.Adequacy
import Idealize.ShloMosaic.Init

noncomputable section

namespace Cert.Proof

open Idealize.ShloMosaic Idealize.ShloMosaic.TcCoe Idealize.SL.Sem Circuit

/-- The word-level kernel terminates, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Under the precondition the kernel's fused arrangement of the second result is the reference's: every entry the
    negative prediction error depends on is real, and among reals a − (s + t) = a − s − t. -/
theorem neg_eq (m : (ℓ : Loc Cert.KernelIdeal.nD Cert.KernelIdeal.τ Cert.KernelIdeal.sig) → Buf (Elt Ideal) ℓ)
    (c : Dev Cert.KernelIdeal.nD)
    (h : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) = fun _ => 1#1) :
    Cert.KernelIdeal.Whole.negArr m c
      = outNeg (Ideal.ofBits .f32 0x3F666666#32) (Ideal.ofBits .f32 0x3DCCCCCD#32) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  obtain ⟨r0, r1, r4, r5, r6, r8, r9, r10, r12, r13⟩ :=
    Cert.Pre_finite_inputs.Reals.real_of_pre _ _ _ _ _ _ _ _ _ _ _ _ _ _ h
  unfold Cert.KernelIdeal.Whole.negArr
  exact outNegFused_eq _ _ _ r0 r1 r4 r5 r6 r8 r9 r10 r12 r13

/-- From memories agreeing on the arguments both programs end with the same two arrays: the filtered positive and
    negative prediction errors of the arguments. -/
theorem algebraic : Cert.algebraic_KernelIdeal_ReferenceIdeal := by
  intro m ρ m' ρ' hpre hagree
  refine ⟨fun c => Cert.KernelIdeal.Whole.posArr m c,
    fun c => outNeg (Ideal.ofBits .f32 0x3F666666#32) (Ideal.ofBits .f32 0x3DCCCCCD#32) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    ?_, ?_⟩
  · exact (θ_run Cert.KernelIdeal.defs _ _).mono
      (fun r h c => ⟨(h c).1.trans (Cert.KernelIdeal.Whole.final11 m c),
        (h c).2.1.trans ((Cert.KernelIdeal.Whole.final12 m c).trans (neg_eq m c (hpre c))), (h c).2.2⟩)
      (Cert.KernelIdeal.Value.run_blocks m ρ)
  · refine (θ_run Cert.ReferenceIdeal.defs _ _).mono (fun r h c => ⟨?_, ?_, (h c).2.2⟩)
      (Cert.ReferenceIdeal.Value.run (F := Ideal) m' ρ')
    · obtain ⟨a0, a1, a2, a3, a4, a5, a6, a7, a8, a9, a10, a11, a12, a13⟩ := hagree c
      refine (h c).1.trans ((Cert.ReferenceIdeal.Read.val_main_v38_eq (F := Ideal) _ _ _ _ _ _ _).trans ?_)
      rw [Cert.ReferenceIdeal.Rows.ref_out_pos, a0, a1, a2, a4, a5, a7, a11]
      rfl
    · obtain ⟨a0, a1, a2, a3, a4, a5, a6, a7, a8, a9, a10, a11, a12, a13⟩ := hagree c
      refine (h c).2.1.trans ((Cert.ReferenceIdeal.Read.val_main_v43_eq (F := Ideal) _ _ _ _ _ _ _ _ _ _ _).trans ?_)
      rw [Cert.ReferenceIdeal.Rows.ref_out_neg, a0, a1, a3, a4, a5, a6, a8, a9, a10, a12, a13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
